-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S128x64 .f32) (main_arg11 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S5000 : Shape := ⟨1, ![5000]⟩
abbrev S5000x1 : Shape := ⟨2, ![5000, 1]⟩
abbrev S50000x64 : Shape := ⟨2, ![50000, 64]⟩
abbrev S5000x64 : Shape := ⟨2, ![5000, 64]⟩
abbrev S650000x64 : Shape := ⟨2, ![650000, 64]⟩
abbrev S1x64 : Shape := ⟨2, ![1, 64]⟩

abbrev nBuf : Space → Nat
  | .hbm => 114
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S50000, .i32⟩
  | .hbm, ⟨13, _⟩ => ⟨S1x600000, .i32⟩
  | .hbm, ⟨14, _⟩ => ⟨S600000, .i32⟩
  | .hbm, ⟨15, _⟩ => ⟨S650000, .i32⟩
  | .hbm, ⟨16, _⟩ => ⟨S1x600000, .i32⟩
  | .hbm, ⟨17, _⟩ => ⟨S600000, .i32⟩
  | .hbm, ⟨18, _⟩ => ⟨S650000, .i32⟩
  | .hbm, ⟨19, _⟩ => ⟨S_, .f32⟩
  | .hbm, ⟨20, _⟩ => ⟨S650000, .f32⟩
  | .hbm, ⟨21, _⟩ => ⟨S_, .f32⟩
  | .hbm, ⟨22, _⟩ => ⟨S50000, .f32⟩
  | .hbm, ⟨23, _⟩ => ⟨S650000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000, .f32⟩
  | .hbm, ⟨51, _⟩ => ⟨S650000, .f32⟩
  | .hbm, ⟨52, _⟩ => ⟨S50000x128, .f32⟩
  | .hbm, ⟨53, _⟩ => ⟨S_, .i32⟩
  | .hbm, ⟨54, _⟩ => ⟨S650000, .i32⟩
  | .hbm, ⟨55, _⟩ => ⟨S650000, .i1⟩
  | .hbm, ⟨56, _⟩ => ⟨S_, .i32⟩
  | .hbm, ⟨57, _⟩ => ⟨S650000, .i32⟩
  | .hbm, ⟨58, _⟩ => ⟨S650000, .i32⟩
  | .hbm, ⟨59, _⟩ => ⟨S650000, .i32⟩
  | .hbm, ⟨60, _⟩ => ⟨S650000x1, .i32⟩
  | .hbm, ⟨61, _⟩ => ⟨S650000x128, .f32⟩
  | .hbm, ⟨62, _⟩ => ⟨S650000x1, .f32⟩
  | .hbm, ⟨63, _⟩ => ⟨S650000x128, .f32⟩
  | .hbm, ⟨64, _⟩ => ⟨S650000x128, .f32⟩
  | .hbm, ⟨65, _⟩ => ⟨S_, .f32⟩
  | .hbm, ⟨66, _⟩ => ⟨S50000x128, .f32⟩
  | .hbm, ⟨67, _⟩ => ⟨S650000x1, .i32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S650000, .i32⟩
  | .hbm, ⟨76, _⟩ => ⟨S650000, .i1⟩
  | .hbm, ⟨77, _⟩ => ⟨S_, .i32⟩
  | .hbm, ⟨78, _⟩ => ⟨S650000, .i32⟩
  | .hbm, ⟨79, _⟩ => ⟨S650000, .i32⟩
  | .hbm, ⟨80, _⟩ => ⟨S650000, .i32⟩
  | .hbm, ⟨81, _⟩ => ⟨S650000x1, .i32⟩
  | .hbm, ⟨82, _⟩ => ⟨S650000x128, .f32⟩
  | .hbm, ⟨83, _⟩ => ⟨S650000x1, .f32⟩
  | .hbm, ⟨84, _⟩ => ⟨S650000x128, .f32⟩
  | .hbm, ⟨85, _⟩ => ⟨S650000x128, .f32⟩
  | .hbm, ⟨86, _⟩ => ⟨S_, .f32⟩
  | .hbm, ⟨87, _⟩ => ⟨S50000x128, .f32⟩
  | .hbm, ⟨88, _⟩ => ⟨S650000x1, .i32⟩
  | .hbm, ⟨89, _⟩ => ⟨S50000x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S50000x128, .f32⟩
  | .hbm, ⟨94, _⟩ => ⟨S50000x64, .f32⟩
  | .hbm, ⟨95, _⟩ => ⟨S_, .i32⟩
  | .hbm, ⟨96, _⟩ => ⟨S650000, .i32⟩
  | .hbm, ⟨97, _⟩ => ⟨S650000, .i1⟩
  | .hbm, ⟨98, _⟩ => ⟨S_, .i32⟩
  | .hbm, ⟨99, _⟩ => ⟨S650000, .i32⟩
  | .hbm, ⟨100, _⟩ => ⟨S650000, .i32⟩
  | .hbm, ⟨101, _⟩ => ⟨S650000, .i32⟩
  | .hbm, ⟨102, _⟩ => ⟨S650000x1, .i32⟩
  | .hbm, ⟨103, _⟩ => ⟨S650000x64, .f32⟩
  | .hbm, ⟨104, _⟩ => ⟨S650000x1, .f32⟩
  | .hbm, ⟨105, _⟩ => ⟨S650000x64, .f32⟩
  | .hbm, ⟨106, _⟩ => ⟨S650000x64, .f32⟩
  | .hbm, ⟨107, _⟩ => ⟨S_, .f32⟩
  | .hbm, ⟨108, _⟩ => ⟨S50000x64, .f32⟩
  | .hbm, ⟨109, _⟩ => ⟨S650000x1, .i32⟩
  | .hbm, ⟨110, _⟩ => ⟨S50000x64, .f32⟩
  | .hbm, ⟨111, _⟩ => ⟨S1x64, .f32⟩
  | .hbm, ⟨112, _⟩ => ⟨S50000x64, .f32⟩
  | .hbm, ⟨113, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S5000x64, .f32⟩
  | .local _ .vmem, ⟨28, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x64_S5000x64_1_0_0_1_n_n_wf : DotDims.WF S5000x128 S128x64 S5000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x1 : Shape := ⟨2, ![50000, 1]⟩
abbrev S50000x64 : Shape := ⟨2, ![50000, 64]⟩
abbrev S650000x64 : Shape := ⟨2, ![650000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x64, .f32⟩
  | 11 => ⟨S64, .f32⟩
  | 12 => ⟨S50000, .i32⟩
  | 13 => ⟨S1x600000, .i32⟩
  | 14 => ⟨S600000, .i32⟩
  | 15 => ⟨S650000, .i32⟩
  | 16 => ⟨S1x600000, .i32⟩
  | 17 => ⟨S600000, .i32⟩
  | 18 => ⟨S650000, .i32⟩
  | 19 => ⟨S_, .f32⟩
  | 20 => ⟨S650000, .f32⟩
  | 21 => ⟨S_, .f32⟩
  | 22 => ⟨S50000, .f32⟩
  | 23 => ⟨S650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S650000, .i32⟩
  | 35 => ⟨S650000, .i1⟩
  | 36 => ⟨S_, .i32⟩
  | 37 => ⟨S650000, .i32⟩
  | 38 => ⟨S650000, .i32⟩
  | 39 => ⟨S650000, .i32⟩
  | 40 => ⟨S650000x1, .i32⟩
  | 41 => ⟨S650000, .f32⟩
  | 42 => ⟨S_, .i32⟩
  | 43 => ⟨S650000, .i32⟩
  | 44 => ⟨S650000, .i1⟩
  | 45 => ⟨S_, .i32⟩
  | 46 => ⟨S650000, .i32⟩
  | 47 => ⟨S650000, .i32⟩
  | 48 => ⟨S650000, .i32⟩
  | 49 => ⟨S650000x1, .i32⟩
  | 50 => ⟨S650000, .f32⟩
  | 51 => ⟨S650000, .f32⟩
  | 52 => ⟨S50000x128, .f32⟩
  | 53 => ⟨S_, .i32⟩
  | 54 => ⟨S650000, .i32⟩
  | 55 => ⟨S650000, .i1⟩
  | 56 => ⟨S_, .i32⟩
  | 57 => ⟨S650000, .i32⟩
  | 58 => ⟨S650000, .i32⟩
  | 59 => ⟨S650000, .i32⟩
  | 60 => ⟨S650000x1, .i32⟩
  | 61 => ⟨S650000x128, .f32⟩
  | 62 => ⟨S650000x1, .f32⟩
  | 63 => ⟨S650000x128, .f32⟩
  | 64 => ⟨S650000x128, .f32⟩
  | 65 => ⟨S_, .f32⟩
  | 66 => ⟨S50000x128, .f32⟩
  | 67 => ⟨S650000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000, .f32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S50000x128, .f32⟩
  | 81 => ⟨S_, .f32⟩
  | 82 => ⟨S50000, .f32⟩
  | 83 => ⟨S50000x1, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S_, .f32⟩
  | 90 => ⟨S50000x1, .f32⟩
  | 91 => ⟨S50000x1, .f32⟩
  | 92 => ⟨S50000x1, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S650000, .i32⟩
  | 107 => ⟨S650000, .i1⟩
  | 108 => ⟨S_, .i32⟩
  | 109 => ⟨S650000, .i32⟩
  | 110 => ⟨S650000, .i32⟩
  | 111 => ⟨S650000, .i32⟩
  | 112 => ⟨S650000x1, .i32⟩
  | 113 => ⟨S650000x128, .f32⟩
  | 114 => ⟨S650000x1, .f32⟩
  | 115 => ⟨S650000x128, .f32⟩
  | 116 => ⟨S650000x128, .f32⟩
  | 117 => ⟨S_, .f32⟩
  | 118 => ⟨S50000x128, .f32⟩
  | 119 => ⟨S650000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000, .f32⟩
  | 126 => ⟨S50000x1, .f32⟩
  | 127 => ⟨S_, .f32⟩
  | _ => ⟨S50000x128, .f32⟩

abbrev hbmTy0_1 (i : Nat) : BufTy := match i % 128 with
  | 0 => ⟨S50000x1, .f32⟩
  | 1 => ⟨S50000x1, .f32⟩
  | 2 => ⟨S50000x128, .f32⟩
  | 3 => ⟨S50000x128, .f32⟩
  | 4 => ⟨S50000x128, .f32⟩
  | 5 => ⟨S_, .f32⟩
  | 6 => ⟨S50000, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S_, .f32⟩
  | 14 => ⟨S50000x1, .f32⟩
  | 15 => ⟨S50000x1, .f32⟩
  | 16 => ⟨S50000x1, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x64, .f32⟩
  | 29 => ⟨S_, .i32⟩
  | 30 => ⟨S650000, .i32⟩
  | 31 => ⟨S650000, .i1⟩
  | 32 => ⟨S_, .i32⟩
  | 33 => ⟨S650000, .i32⟩
  | 34 => ⟨S650000, .i32⟩
  | 35 => ⟨S650000, .i32⟩
  | 36 => ⟨S650000x1, .i32⟩
  | 37 => ⟨S650000x64, .f32⟩
  | 38 => ⟨S650000x1, .f32⟩
  | 39 => ⟨S650000x64, .f32⟩
  | 40 => ⟨S650000x64, .f32⟩
  | 41 => ⟨S_, .f32⟩
  | 42 => ⟨S50000x64, .f32⟩
  | 43 => ⟨S650000x1, .i32⟩
  | 44 => ⟨S50000x64, .f32⟩
  | 45 => ⟨S1x64, .f32⟩
  | 46 => ⟨S50000x64, .f32⟩
  | 47 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call1_cst : Ref sig .tc := ⟨.hbm, 101, rfl⟩
abbrev main_call1_v0 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_cst_18 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_19 : Ref sig .tc := ⟨.hbm, 133, rfl⟩
abbrev main_v96 : Ref sig .tc := ⟨.hbm, 134, rfl⟩
abbrev main_v97 : Ref sig .tc := ⟨.hbm, 135, rfl⟩
abbrev main_cst_20 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_21 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_call2_cst : Ref sig .tc := ⟨.hbm, 153, rfl⟩
abbrev main_call2_v0 : Ref sig .tc := ⟨.hbm, 154, rfl⟩
abbrev main_v113 : Ref sig .tc := ⟨.hbm, 155, rfl⟩
abbrev main_v114 : Ref sig .tc := ⟨.hbm, 156, rfl⟩
abbrev main_c_22 : Ref sig .tc := ⟨.hbm, 157, rfl⟩
abbrev main_v115 : Ref sig .tc := ⟨.hbm, 158, rfl⟩
abbrev main_v116 : Ref sig .tc := ⟨.hbm, 159, rfl⟩
abbrev main_c_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_24 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S650000x1_S650000x64_0_1 : S650000x1.BroadcastsInDim S650000x64 (![0, 1] : Fin 2 → Fin S650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x64_S50000x64_1_0_0_1_n_n_wf : DotDims.WF S50000x128 S128x64 S50000x64 [1] [0] [0] [1] [] []
  gather_S50000x64_S650000x1_S650000x64_1_0_n_n_0_1_164_wf : GatherDims.WF S50000x64 S650000x1 S650000x64 [1] [0] [] [0] [] 1 ![1, 64]
  scatter_S50000x64_S650000x1_S650000x64_1_0_0_1_wf : ScatterDims.WF S50000x64 S650000x1 S650000x64 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S650000x1_S650000x64_1_0_n_n_0_1_164 : GatherDims S50000x64 S650000x1 S650000x64 where
  offsetDims := [1]
  collapsedSliceDims := [0]
  operandBatchingDims := []
  startIndicesBatchingDims := []
  startIndexMap := [0]
  indexVectorDim := 1
  sliceSizes := ![1, 64]
  wf := gather_S50000x64_S650000x1_S650000x64_1_0_n_n_0_1_164_wf
def scatter_S50000x64_S650000x1_S650000x64_1_0_0_1 : ScatterDims S50000x64 S650000x1 S650000x64 where
  updateWindowDims := [1]
  insertedWindowDims := [0]
  scatterDimsToOperandDims := [0]
  indexVectorDim := 1
  wf := scatter_S50000x64_S650000x1_S650000x64_1_0_0_1_wf

class Facts : Prop extends Facts₀ where

variable [Facts]
-- ==== Proof.KRun.lean ====
/-
  The kernel program's run with its result named.

  The program is eleven segments — six stretches of host operations and five launched regions — run one after the
  other, and the contents of every buffer at each boundary between segments are a fold from the launch memory.  The run
  therefore ends with every buffer that outlives the launch at the last boundary's contents: in particular the result
  array, and each argument array at what it held at launch.
-/
import proofs.«154800_j69226282877028_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions kit's implicit arguments are found by unifying its conclusion with this one, which takes unfolding
-- plain definitions in a metavariable's type
set_option backward.isDefEq.respectTransparency.types false in
/-- Every weakly fair execution of the program terminates, nothing faulting, with the result array at the contents
    the last boundary gives it and every argument array as launched. -/
theorem run_result : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v82 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.RunV

end
-- ==== Proof.Carry.lean ====
/-
  Buffers that a stretch of the program leaves alone.

  The program's segments each write only their own result buffers.  The three arrays computed once from the edge
  list — the sources, the targets and the edge weights — and the argument arrays are read by later segments but
  written by none of them, so at every later boundary they hold what they held when first computed (or, for an
  argument, at launch).
-/
import proofs.«154800_j69226282877028_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- A stretch of host operations leaves a buffer none of them writes as it was. -/
macro "kept_by_host" : tactic => `(tactic| (
  refine StableHlo.after_of_forall_not_mem _ _ (List.forall_iff_forall_mem.mp ?_)
  simp only [hostOps0, hostOps0_1, hostOps0_2, hostOps1, hostOps3, hostOps5, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## The edge arrays, from the first region's entry on -/
theorem main_v3_W4 (c : Dev nD) : W4 m ρ c (Proc.devRef .tc main_v3) = W3 m ρ c (Proc.devRef .tc main_v3) :=
  ((W4_of_ne m ρ c main_v3 (by decide)).trans rfl)
theorem main_v3_W7 (c : Dev nD) : W7 m ρ c (Proc.devRef .tc main_v3) = W3 m ρ c (Proc.devRef .tc main_v3) :=
  ((W7_of_ne m ρ c main_v3 (by decide)).trans ((W6_of_ne m ρ c main_v3 (by decide)).trans ((by kept_by_host : W5 m ρ c (Proc.devRef .tc main_v3) = W4 m ρ c (Proc.devRef .tc main_v3)).trans ((W4_of_ne m ρ c main_v3 (by decide)).trans rfl))))
theorem main_v3_W10 (c : Dev nD) : W10 m ρ c (Proc.devRef .tc main_v3) = W3 m ρ c (Proc.devRef .tc main_v3) :=
  ((W10_of_ne m ρ c main_v3 (by decide)).trans ((W9_of_ne m ρ c main_v3 (by decide)).trans ((by kept_by_host : W8 m ρ c (Proc.devRef .tc main_v3) = W7 m ρ c (Proc.devRef .tc main_v3)).trans ((W7_of_ne m ρ c main_v3 (by decide)).trans ((W6_of_ne m ρ c main_v3 (by decide)).trans ((by kept_by_host : W5 m ρ c (Proc.devRef .tc main_v3) = W4 m ρ c (Proc.devRef .tc main_v3)).trans ((W4_of_ne m ρ c main_v3 (by decide)).trans rfl)))))))
theorem main_v6_W4 (c : Dev nD) : W4 m ρ c (Proc.devRef .tc main_v6) = W3 m ρ c (Proc.devRef .tc main_v6) :=
  ((W4_of_ne m ρ c main_v6 (by decide)).trans rfl)
theorem main_v6_W7 (c : Dev nD) : W7 m ρ c (Proc.devRef .tc main_v6) = W3 m ρ c (Proc.devRef .tc main_v6) :=
  ((W7_of_ne m ρ c main_v6 (by decide)).trans ((W6_of_ne m ρ c main_v6 (by decide)).trans ((by kept_by_host : W5 m ρ c (Proc.devRef .tc main_v6) = W4 m ρ c (Proc.devRef .tc main_v6)).trans ((W4_of_ne m ρ c main_v6 (by decide)).trans rfl))))
theorem main_v6_W10 (c : Dev nD) : W10 m ρ c (Proc.devRef .tc main_v6) = W3 m ρ c (Proc.devRef .tc main_v6) :=
  ((W10_of_ne m ρ c main_v6 (by decide)).trans ((W9_of_ne m ρ c main_v6 (by decide)).trans ((by kept_by_host : W8 m ρ c (Proc.devRef .tc main_v6) = W7 m ρ c (Proc.devRef .tc main_v6)).trans ((W7_of_ne m ρ c main_v6 (by decide)).trans ((W6_of_ne m ρ c main_v6 (by decide)).trans ((by kept_by_host : W5 m ρ c (Proc.devRef .tc main_v6) = W4 m ρ c (Proc.devRef .tc main_v6)).trans ((W4_of_ne m ρ c main_v6 (by decide)).trans rfl)))))))
theorem main_v29_W4 (c : Dev nD) : W4 m ρ c (Proc.devRef .tc main_v29) = W3 m ρ c (Proc.devRef .tc main_v29) :=
  ((W4_of_ne m ρ c main_v29 (by decide)).trans rfl)
theorem main_v29_W7 (c : Dev nD) : W7 m ρ c (Proc.devRef .tc main_v29) = W3 m ρ c (Proc.devRef .tc main_v29) :=
  ((W7_of_ne m ρ c main_v29 (by decide)).trans ((W6_of_ne m ρ c main_v29 (by decide)).trans ((by kept_by_host : W5 m ρ c (Proc.devRef .tc main_v29) = W4 m ρ c (Proc.devRef .tc main_v29)).trans ((W4_of_ne m ρ c main_v29 (by decide)).trans rfl))))
theorem main_v29_W10 (c : Dev nD) : W10 m ρ c (Proc.devRef .tc main_v29) = W3 m ρ c (Proc.devRef .tc main_v29) :=
  ((W10_of_ne m ρ c main_v29 (by decide)).trans ((W9_of_ne m ρ c main_v29 (by decide)).trans ((by kept_by_host : W8 m ρ c (Proc.devRef .tc main_v29) = W7 m ρ c (Proc.devRef .tc main_v29)).trans ((W7_of_ne m ρ c main_v29 (by decide)).trans ((W6_of_ne m ρ c main_v29 (by decide)).trans ((by kept_by_host : W5 m ρ c (Proc.devRef .tc main_v29) = W4 m ρ c (Proc.devRef .tc main_v29)).trans ((W4_of_ne m ρ c main_v29 (by decide)).trans rfl)))))))

/-! ## The arguments, at the boundary where each is read -/
theorem main_arg0_W3 (c : Dev nD) : W3 m ρ c (Proc.devRef .tc main_arg0) = m ((c : Thread nD τ).loc main_arg0) :=
  ((by kept_by_host : W3 m ρ c (Proc.devRef .tc main_arg0) = W2 m ρ c (Proc.devRef .tc main_arg0)).trans ((by kept_by_host : W2 m ρ c (Proc.devRef .tc main_arg0) = W1 m ρ c (Proc.devRef .tc main_arg0)).trans ((by kept_by_host : W1 m ρ c (Proc.devRef .tc main_arg0) = W0 m ρ c (Proc.devRef .tc main_arg0)).trans rfl)))
theorem main_arg2_W3 (c : Dev nD) : W3 m ρ c (Proc.devRef .tc main_arg2) = m ((c : Thread nD τ).loc main_arg2) :=
  ((by kept_by_host : W3 m ρ c (Proc.devRef .tc main_arg2) = W2 m ρ c (Proc.devRef .tc main_arg2)).trans ((by kept_by_host : W2 m ρ c (Proc.devRef .tc main_arg2) = W1 m ρ c (Proc.devRef .tc main_arg2)).trans ((by kept_by_host : W1 m ρ c (Proc.devRef .tc main_arg2) = W0 m ρ c (Proc.devRef .tc main_arg2)).trans rfl)))
theorem main_arg3_W4 (c : Dev nD) : W4 m ρ c (Proc.devRef .tc main_arg3) = m ((c : Thread nD τ).loc main_arg3) :=
  ((W4_of_ne m ρ c main_arg3 (by decide)).trans ((by kept_by_host : W3 m ρ c (Proc.devRef .tc main_arg3) = W2 m ρ c (Proc.devRef .tc main_arg3)).trans ((by kept_by_host : W2 m ρ c (Proc.devRef .tc main_arg3) = W1 m ρ c (Proc.devRef .tc main_arg3)).trans ((by kept_by_host : W1 m ρ c (Proc.devRef .tc main_arg3) = W0 m ρ c (Proc.devRef .tc main_arg3)).trans rfl))))
theorem main_arg4_W4 (c : Dev nD) : W4 m ρ c (Proc.devRef .tc main_arg4) = m ((c : Thread nD τ).loc main_arg4) :=
  ((W4_of_ne m ρ c main_arg4 (by decide)).trans ((by kept_by_host : W3 m ρ c (Proc.devRef .tc main_arg4) = W2 m ρ c (Proc.devRef .tc main_arg4)).trans ((by kept_by_host : W2 m ρ c (Proc.devRef .tc main_arg4) = W1 m ρ c (Proc.devRef .tc main_arg4)).trans ((by kept_by_host : W1 m ρ c (Proc.devRef .tc main_arg4) = W0 m ρ c (Proc.devRef .tc main_arg4)).trans rfl))))
theorem main_arg5_W4 (c : Dev nD) : W4 m ρ c (Proc.devRef .tc main_arg5) = m ((c : Thread nD τ).loc main_arg5) :=
  ((W4_of_ne m ρ c main_arg5 (by decide)).trans ((by kept_by_host : W3 m ρ c (Proc.devRef .tc main_arg5) = W2 m ρ c (Proc.devRef .tc main_arg5)).trans ((by kept_by_host : W2 m ρ c (Proc.devRef .tc main_arg5) = W1 m ρ c (Proc.devRef .tc main_arg5)).trans ((by kept_by_host : W1 m ρ c (Proc.devRef .tc main_arg5) = W0 m ρ c (Proc.devRef .tc main_arg5)).trans rfl))))
theorem main_arg6_W6 (c : Dev nD) : W6 m ρ c (Proc.devRef .tc main_arg6) = m ((c : Thread nD τ).loc main_arg6) :=
  ((W6_of_ne m ρ c main_arg6 (by decide)).trans ((by kept_by_host : W5 m ρ c (Proc.devRef .tc main_arg6) = W4 m ρ c (Proc.devRef .tc main_arg6)).trans ((W4_of_ne m ρ c main_arg6 (by decide)).trans ((by kept_by_host : W3 m ρ c (Proc.devRef .tc main_arg6) = W2 m ρ c (Proc.devRef .tc main_arg6)).trans ((by kept_by_host : W2 m ρ c (Proc.devRef .tc main_arg6) = W1 m ρ c (Proc.devRef .tc main_arg6)).trans ((by kept_by_host : W1 m ρ c (Proc.devRef .tc main_arg6) = W0 m ρ c (Proc.devRef .tc main_arg6)).trans rfl))))))
theorem main_arg7_W7 (c : Dev nD) : W7 m ρ c (Proc.devRef .tc main_arg7) = m ((c : Thread nD τ).loc main_arg7) :=
  ((W7_of_ne m ρ c main_arg7 (by decide)).trans ((W6_of_ne m ρ c main_arg7 (by decide)).trans ((by kept_by_host : W5 m ρ c (Proc.devRef .tc main_arg7) = W4 m ρ c (Proc.devRef .tc main_arg7)).trans ((W4_of_ne m ρ c main_arg7 (by decide)).trans ((by kept_by_host : W3 m ρ c (Proc.devRef .tc main_arg7) = W2 m ρ c (Proc.devRef .tc main_arg7)).trans ((by kept_by_host : W2 m ρ c (Proc.devRef .tc main_arg7) = W1 m ρ c (Proc.devRef .tc main_arg7)).trans ((by kept_by_host : W1 m ρ c (Proc.devRef .tc main_arg7) = W0 m ρ c (Proc.devRef .tc main_arg7)).trans rfl)))))))
theorem main_arg8_W7 (c : Dev nD) : W7 m ρ c (Proc.devRef .tc main_arg8) = m ((c : Thread nD τ).loc main_arg8) :=
  ((W7_of_ne m ρ c main_arg8 (by decide)).trans ((W6_of_ne m ρ c main_arg8 (by decide)).trans ((by kept_by_host : W5 m ρ c (Proc.devRef .tc main_arg8) = W4 m ρ c (Proc.devRef .tc main_arg8)).trans ((W4_of_ne m ρ c main_arg8 (by decide)).trans ((by kept_by_host : W3 m ρ c (Proc.devRef .tc main_arg8) = W2 m ρ c (Proc.devRef .tc main_arg8)).trans ((by kept_by_host : W2 m ρ c (Proc.devRef .tc main_arg8) = W1 m ρ c (Proc.devRef .tc main_arg8)).trans ((by kept_by_host : W1 m ρ c (Proc.devRef .tc main_arg8) = W0 m ρ c (Proc.devRef .tc main_arg8)).trans rfl)))))))
theorem main_arg9_W7 (c : Dev nD) : W7 m ρ c (Proc.devRef .tc main_arg9) = m ((c : Thread nD τ).loc main_arg9) :=
  ((W7_of_ne m ρ c main_arg9 (by decide)).trans ((W6_of_ne m ρ c main_arg9 (by decide)).trans ((by kept_by_host : W5 m ρ c (Proc.devRef .tc main_arg9) = W4 m ρ c (Proc.devRef .tc main_arg9)).trans ((W4_of_ne m ρ c main_arg9 (by decide)).trans ((by kept_by_host : W3 m ρ c (Proc.devRef .tc main_arg9) = W2 m ρ c (Proc.devRef .tc main_arg9)).trans ((by kept_by_host : W2 m ρ c (Proc.devRef .tc main_arg9) = W1 m ρ c (Proc.devRef .tc main_arg9)).trans ((by kept_by_host : W1 m ρ c (Proc.devRef .tc main_arg9) = W0 m ρ c (Proc.devRef .tc main_arg9)).trans rfl)))))))
theorem main_arg10_W9 (c : Dev nD) : W9 m ρ c (Proc.devRef .tc main_arg10) = m ((c : Thread nD τ).loc main_arg10) :=
  ((W9_of_ne m ρ c main_arg10 (by decide)).trans ((by kept_by_host : W8 m ρ c (Proc.devRef .tc main_arg10) = W7 m ρ c (Proc.devRef .tc main_arg10)).trans ((W7_of_ne m ρ c main_arg10 (by decide)).trans ((W6_of_ne m ρ c main_arg10 (by decide)).trans ((by kept_by_host : W5 m ρ c (Proc.devRef .tc main_arg10) = W4 m ρ c (Proc.devRef .tc main_arg10)).trans ((W4_of_ne m ρ c main_arg10 (by decide)).trans ((by kept_by_host : W3 m ρ c (Proc.devRef .tc main_arg10) = W2 m ρ c (Proc.devRef .tc main_arg10)).trans ((by kept_by_host : W2 m ρ c (Proc.devRef .tc main_arg10) = W1 m ρ c (Proc.devRef .tc main_arg10)).trans ((by kept_by_host : W1 m ρ c (Proc.devRef .tc main_arg10) = W0 m ρ c (Proc.devRef .tc main_arg10)).trans rfl)))))))))
theorem main_arg11_W10 (c : Dev nD) : W10 m ρ c (Proc.devRef .tc main_arg11) = m ((c : Thread nD τ).loc main_arg11) :=
  ((W10_of_ne m ρ c main_arg11 (by decide)).trans ((W9_of_ne m ρ c main_arg11 (by decide)).trans ((by kept_by_host : W8 m ρ c (Proc.devRef .tc main_arg11) = W7 m ρ c (Proc.devRef .tc main_arg11)).trans ((W7_of_ne m ρ c main_arg11 (by decide)).trans ((W6_of_ne m ρ c main_arg11 (by decide)).trans ((by kept_by_host : W5 m ρ c (Proc.devRef .tc main_arg11) = W4 m ρ c (Proc.devRef .tc main_arg11)).trans ((W4_of_ne m ρ c main_arg11 (by decide)).trans ((by kept_by_host : W3 m ρ c (Proc.devRef .tc main_arg11) = W2 m ρ c (Proc.devRef .tc main_arg11)).trans ((by kept_by_host : W2 m ρ c (Proc.devRef .tc main_arg11) = W1 m ρ c (Proc.devRef .tc main_arg11)).trans ((by kept_by_host : W1 m ρ c (Proc.devRef .tc main_arg11) = W0 m ρ c (Proc.devRef .tc main_arg11)).trans rfl))))))))))

end Cert.KernelIdeal.Carry

end
-- ==== Proof.Spec.lean ====
/-
  The two dense, row-wise maps of a graph convolution layer, as functions of whole arrays of extended reals.

  A layer first multiplies the node features by a weight matrix: row r of the product is the sum over the 128
  input features k of X (r, k) · W (k, c).  After the neighbourhood sum (which is shared, operation for operation,
  by the two programs compared, and is never opened) a layer adds a bias row, normalises each row by its own mean and
  variance, scales and shifts it by two more rows, and clips it at zero.  Both maps act on each row by itself, so
  the rows [5000 t, 5000 t + 5000) of the result depend only on the same rows of the operand: this is what lets ten
  row blocks computed one at a time be read as one array.
-/
import Idealize.ShloMosaic.Lib.ValueIdx
import Idealize.ShloMosaic.PureOps.Ideal

noncomputable section

open scoped BigOperators

namespace Cert.GcnSpec

open Idealize.ShloMosaic Idealize.ShloMosaic.ValueIdx

/-- The product X · W of an [a, 128] array with a [128, n] array: entry (r, c) is the sum over k of X (r, k) · W (k, c). -/
def dense {a n : Nat} (X : (⟨2, ![a, 128]⟩ : Shape).Idx → EReal) (W : (⟨2, ![128, n]⟩ : Shape).Idx → EReal) :
    (⟨2, ![a, n]⟩ : Shape).Idx → EReal :=
  fun j => ∑ k : Fin 128, X (ix2 (j 0) k) * W (ix2 k (j 1))

/-- The number 128 as the single-precision word both programs divide by. -/
def width : EReal := Ideal.ofBits .f32 0x43000000#32

/-- The small positive word both programs add to a row's variance. -/
def eps : EReal := Ideal.ofBits .f32 0x3727C5AC#32

/-- A row's sum divided by 128. -/
def rowMean {a : Nat} (Z : (⟨2, ![a, 128]⟩ : Shape).Idx → EReal) (r : Fin a) : EReal :=
  Ideal.div (∑ k : Fin 128, Z (ix2 r k)) width

/-- The operand with the bias row added to every row. -/
def shifted {a : Nat} (Y : (⟨2, ![a, 128]⟩ : Shape).Idx → EReal) (b : (⟨2, ![1, 128]⟩ : Shape).Idx → EReal) :
    (⟨2, ![a, 128]⟩ : Shape).Idx → EReal :=
  fun i => Y i + b (ix2 (0 : Fin 1) (i 1))

/-- Each entry minus its row's mean. -/
def centred {a : Nat} (Z : (⟨2, ![a, 128]⟩ : Shape).Idx → EReal) : (⟨2, ![a, 128]⟩ : Shape).Idx → EReal :=
  fun i => Z i - rowMean Z (i 0)

/-- Bias, row normalisation, scale, shift and clip at zero: with Z = Y + b and C = Z − mean Z, entry (r, c) is
    max (C (r, c) · rsqrt (mean (C²) r + eps) · g c + be c, 0). -/
def normRelu {a : Nat} (Y : (⟨2, ![a, 128]⟩ : Shape).Idx → EReal) (b g be : (⟨2, ![1, 128]⟩ : Shape).Idx → EReal) :
    (⟨2, ![a, 128]⟩ : Shape).Idx → EReal :=
  fun j => max (centred (shifted Y b) j
      * Ideal.rsqrt (rowMean (fun i => centred (shifted Y b) i * centred (shifted Y b) i) (j 0) + eps)
      * g (ix2 (0 : Fin 1) (j 1)) + be (ix2 (0 : Fin 1) (j 1))) (Ideal.ofBits .f32 0x00000000#32)

/-- A vector of length n laid as the one row of a [1, n] array. -/
def asRow {n : Nat} (v : (⟨1, ![n]⟩ : Shape).Idx → EReal) : (⟨2, ![1, n]⟩ : Shape).Idx → EReal :=
  fun q => v (ix1 (q 1))

/-! ## Both maps act row by row -/

/-- A row of the product depends only on the same row of the left operand: if two left operands agree on row r
    (one read at row r, the other at row p), the products agree there. -/
theorem dense_row {a a' n : Nat} (X : (⟨2, ![a, 128]⟩ : Shape).Idx → EReal) (X' : (⟨2, ![a', 128]⟩ : Shape).Idx → EReal)
    (W : (⟨2, ![128, n]⟩ : Shape).Idx → EReal) (r : Fin a) (p : Fin a') (c : Fin n)
    (h : ∀ k : Fin 128, X' (ix2 p k) = X (ix2 r k)) :
    dense X' W (ix2 p c) = dense X W (ix2 r c) := by
  unfold dense
  exact Finset.sum_congr rfl fun k _ => by
    show X' (ix2 p k) * W (ix2 k c) = X (ix2 r k) * W (ix2 k c)
    rw [h k]

theorem rowMean_row {a a' : Nat} (Z : (⟨2, ![a, 128]⟩ : Shape).Idx → EReal) (Z' : (⟨2, ![a', 128]⟩ : Shape).Idx → EReal)
    (r : Fin a) (p : Fin a') (h : ∀ k : Fin 128, Z' (ix2 p k) = Z (ix2 r k)) : rowMean Z' p = rowMean Z r := by
  unfold rowMean
  exact congrArg (fun s => Ideal.div s width) (Finset.sum_congr rfl fun k _ => h k)

theorem shifted_row {a a' : Nat} (Y : (⟨2, ![a, 128]⟩ : Shape).Idx → EReal) (Y' : (⟨2, ![a', 128]⟩ : Shape).Idx → EReal)
    (b : (⟨2, ![1, 128]⟩ : Shape).Idx → EReal) (r : Fin a) (p : Fin a')
    (h : ∀ k : Fin 128, Y' (ix2 p k) = Y (ix2 r k)) (k : Fin 128) : shifted Y' b (ix2 p k) = shifted Y b (ix2 r k) := by
  show Y' (ix2 p k) + b (ix2 (0 : Fin 1) k) = Y (ix2 r k) + b (ix2 (0 : Fin 1) k)
  rw [h k]

theorem centred_row {a a' : Nat} (Z : (⟨2, ![a, 128]⟩ : Shape).Idx → EReal) (Z' : (⟨2, ![a', 128]⟩ : Shape).Idx → EReal)
    (r : Fin a) (p : Fin a') (h : ∀ k : Fin 128, Z' (ix2 p k) = Z (ix2 r k)) (k : Fin 128) :
    centred Z' (ix2 p k) = centred Z (ix2 r k) := by
  show Z' (ix2 p k) - rowMean Z' p = Z (ix2 r k) - rowMean Z r
  rw [h k, rowMean_row Z Z' r p h]

/-- A row of the normalised array depends only on the same row of the operand. -/
theorem normRelu_row {a a' : Nat} (Y : (⟨2, ![a, 128]⟩ : Shape).Idx → EReal) (Y' : (⟨2, ![a', 128]⟩ : Shape).Idx → EReal)
    (b g be : (⟨2, ![1, 128]⟩ : Shape).Idx → EReal) (r : Fin a) (p : Fin a') (c : Fin 128)
    (h : ∀ k : Fin 128, Y' (ix2 p k) = Y (ix2 r k)) :
    normRelu Y' b g be (ix2 p c) = normRelu Y b g be (ix2 r c) := by
  have hc := centred_row (shifted Y b) (shifted Y' b) r p (shifted_row Y Y' b r p h)
  have hm : rowMean (fun i => centred (shifted Y' b) i * centred (shifted Y' b) i) p
      = rowMean (fun i => centred (shifted Y b) i * centred (shifted Y b) i) r :=
    rowMean_row _ _ r p fun k => by
      show centred (shifted Y' b) (ix2 p k) * centred (shifted Y' b) (ix2 p k)
        = centred (shifted Y b) (ix2 r k) * centred (shifted Y b) (ix2 r k)
      rw [hc k]
  show max (centred (shifted Y' b) (ix2 p c)
      * Ideal.rsqrt (rowMean (fun i => centred (shifted Y' b) i * centred (shifted Y' b) i) p + eps)
      * g (ix2 (0 : Fin 1) c) + be (ix2 (0 : Fin 1) c)) (Ideal.ofBits .f32 0x00000000#32)
    = max (centred (shifted Y b) (ix2 r c)
      * Ideal.rsqrt (rowMean (fun i => centred (shifted Y b) i * centred (shifted Y b) i) r + eps)
      * g (ix2 (0 : Fin 1) c) + be (ix2 (0 : Fin 1) c)) (Ideal.ofBits .f32 0x00000000#32)
  rw [hc c, hm]

end Cert.GcnSpec

end
-- ==== Proof.LibPlainDot.lean ====
/-
  A plain two-dimensional contraction read as a sum over the contracted extent.

  A dot of an [M, K] operand with a [K, N] operand contracts the left operand's second axis with the right
  operand's first. Its contraction index has one coordinate, so the sum over contraction indices is a sum over
  `k : Fin K`, and the operands are read at (row, k) and (k, column). The four coordinate facts are hypotheses:
  for a record with literal dimension lists each of them holds by computation.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M, K] × [K, N] dot at output index `j`, re-indexed by the one contracted
    coordinate: the left operand at (j 0, k) times the right operand at (k, j 1), summed over `k : Fin K`. -/
theorem plain_sum {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : (⟨2, ![M, K]⟩ : Shape).Idx → EReal) (rhs : (⟨2, ![K, N]⟩ : Shape).Idx → EReal) (j : (⟨2, ![M, N]⟩ : Shape).Idx) :
    ∑ k : D.contr.Idx, lhs (D.lhsIdx j k) * rhs (D.rhsIdx j k) = ∑ k : Fin K, lhs (ix2 (j 0) k) * rhs (ix2 k (j 1)) := by
  rw [← Equiv.sum_comp (contrEquiv1 D K hr hs).symm]
  refine Finset.sum_congr rfl fun k _ => ?_
  have e1 : D.lhsIdx j ((contrEquiv1 D K hr hs).symm k) = ix2 (j 0) k := by
    funext a; apply Fin.ext
    match a with
    | ⟨0, _⟩ => exact hl0 j _
    | ⟨1, _⟩ => exact (hl1 j _).trans (contrEquiv1_symm_val D K hr hs k)
  have e2 : D.rhsIdx j ((contrEquiv1 D K hr hs).symm k) = ix2 k (j 1) := by
    funext a; apply Fin.ext
    match a with
    | ⟨0, _⟩ => exact (hr0 j _).trans (contrEquiv1_symm_val D K hr hs k)
    | ⟨1, _⟩ => exact hr1 j _
  exact congrArg₂ (fun a b => lhs a * rhs b) e1 e2

/-- A matrix unit's product into the zero accumulator, at the exact values, is that sum. -/
theorem matmul_zero_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂) (j : (⟨2, ![M, N]⟩ : Shape).Idx) :
    FloatOps.matmul D prec lhs rhs (constant ⟨2, ![M, N]⟩ .f32 0x00000000#32) j = ∑ k : Fin K, lhs (ix2 (j 0) k) * rhs (ix2 k (j 1)) :=
  (Ideal.matmul_constant_zero_apply D prec lhs rhs j).trans (plain_sum D hr hs hl0 hl1 hr0 hr1 lhs rhs j)

/-- The host's dot_general, at the exact values, is the same sum. -/
theorem dotGeneral_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule) (lhs : FVec Ideal ⟨2, ![M, K]⟩ φ₁) (rhs : FVec Ideal ⟨2, ![K, N]⟩ φ₂)
    (j : (⟨2, ![M, N]⟩ : Shape).Idx) :
    FloatOps.dotGeneral D prec sched lhs rhs j = ∑ k : Fin K, lhs (ix2 (j 0) k) * rhs (ix2 k (j 1)) :=
  (Ideal.dotGeneral_apply D prec sched lhs rhs j).trans (plain_sum D hr hs hl0 hl1 hr0 hr1 lhs rhs j)

end Cert.LibPlainDot

end
-- ==== Proof.PayDense.lean ====
/-
  The three matrix-product bodies, read at the extended reals.

  Each body narrows its two operands to a sixteen-bit format (the identity at the extended reals) and multiplies
  them into a zero accumulator: entry (p, c) of the result is the sum over the 128 contracted features k of
  x (p, k) · w (k, c), the dense layer of the specification on a block of 5000 rows.
-/
import proofs.«154800_j69226282877028_1_alg».proof.Proof.Gen.KernelIdeal.Skeleton
import proofs.«154800_j69226282877028_1_alg».proof.Proof.Spec
import proofs.«154800_j69226282877028_1_alg».proof.Proof.LibPlainDot
import Idealize.ShloMosaic.Lib.Pipeline.Value

noncomputable section

namespace Cert.KernelIdeal.Dense

open Cert.KernelIdeal Cert.KernelIdeal.Gen Idealize.ShloMosaic Idealize.ShloMosaic.ValueIdx Cert.GcnSpec

/-- The first layer's product body is the dense layer on its block. -/
theorem pay0_eq (x : Vec Ideal S5000x128 .f32) (w : Vec Ideal S128x128 .f32) :
    k0_pay1 (F := Ideal) x w = dense x w := by
  funext j
  unfold k0_pay1
  exact Cert.LibPlainDot.matmul_zero_plain dot_S5000x128_S128x128_S5000x128_1_0_0_1_n_n rfl rfl
    (fun _ _ => rfl) (fun _ _ => rfl) (fun _ _ => rfl) (fun _ _ => rfl) none _ _ j

/-- The second layer's product body is the dense layer on its block. -/
theorem pay2_eq (x : Vec Ideal S5000x128 .f32) (w : Vec Ideal S128x128 .f32) :
    k2_pay1 (F := Ideal) x w = dense x w := by
  funext j
  unfold k2_pay1
  rw [shapeCast_self]
  exact Cert.LibPlainDot.matmul_zero_plain dot_S5000x128_S128x128_S5000x128_1_0_0_1_n_n rfl rfl
    (fun _ _ => rfl) (fun _ _ => rfl) (fun _ _ => rfl) (fun _ _ => rfl) none _ _ j

/-- The third layer's product body, onto 64 output features, is the dense layer on its block. -/
theorem pay4_eq (x : Vec Ideal S5000x128 .f32) (w : Vec Ideal S128x64 .f32) :
    k4_pay1 (F := Ideal) x w = dense x w := by
  funext j
  unfold k4_pay1
  rw [shapeCast_self]
  exact Cert.LibPlainDot.matmul_zero_plain dot_S5000x128_S128x64_S5000x64_1_0_0_1_n_n rfl rfl
    (fun _ _ => rfl) (fun _ _ => rfl) (fun _ _ => rfl) (fun _ _ => rfl) none _ _ j

/-- Block t of a product: if a 5000-row operand block holds rows [5000 t, 5000 t + 5000) of X and the weight
    block is W, the body's entry y is the whole product's entry at the array index i with the same column and
    row 5000 t + (y's row). -/
theorem block_dense {n : Nat} (X : (⟨2, ![50000, 128]⟩ : Shape).Idx → EReal) (W : (⟨2, ![128, n]⟩ : Shape).Idx → EReal)
    (x0 : (⟨2, ![5000, 128]⟩ : Shape).Idx → EReal) (x1 : (⟨2, ![128, n]⟩ : Shape).Idx → EReal) (t : Nat)
    (h0 : ∀ (p : Fin 5000) (k : Fin 128) (i : (⟨2, ![50000, 128]⟩ : Shape).Idx),
      (i 0).val = t * 5000 + p.val → (i 1).val = k.val → x0 (ix2 p k) = X i)
    (h1 : ∀ q, x1 q = W q)
    (y : (⟨2, ![5000, n]⟩ : Shape).Idx) (i : (⟨2, ![50000, n]⟩ : Shape).Idx)
    (hi0 : (i 0).val = t * 5000 + (y 0).val) (hi1 : (i 1).val = (y 1).val) :
    dense x0 x1 y = dense X W i := by
  have e1 : x1 = W := funext h1
  subst e1
  have hy : y = ix2 (y 0) (y 1) := eq_ix2 y
  have hi : i = ix2 (i 0) (y 1) := by
    funext a; apply Fin.ext
    match a with
    | ⟨0, _⟩ => rfl
    | ⟨1, _⟩ => exact hi1
  rw [hy, hi]
  exact dense_row X x0 x1 (i 0) (y 0) (y 1) (fun k => h0 (y 0) k (ix2 (i 0) k) hi0 rfl)

end Cert.KernelIdeal.Dense

end
-- ==== Proof.Region0.lean ====
/-
  The first layer's product, from row blocks to the whole array.

  The product is computed ten times, once per block of 5000 consecutive rows: at step t the rows
  [5000 t, 5000 t + 5000) of the feature array and the whole weight matrix are multiplied, and the result is written
  to the same rows of the output.  A row of a product depends only on the same row of the left operand, so what
  step t writes is exactly block t of the product of the WHOLE feature array with the weights; the ten blocks tile
  the 50000 rows (row r lies in block r / 5000), so the output array ends holding that product.
-/
import proofs.«154800_j69226282877028_1_alg».proof.Proof.Gen.KernelIdeal.Frame
import proofs.«154800_j69226282877028_1_alg».proof.Proof.PayDense
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.GcnSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the ten steps: the feature block and the output block are block t along the rows and
    the only block along the columns; the weight block is always the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What step t writes back is block t of the product of the whole feature array with the weights. -/
theorem flushed_eq (c : Dev nD) (t : Fin cfg0.N) :
    (dat0 V c).flushed 2 t = ((cfg0.win 2).blk t).view.read (Elt Ideal)
      (dense (V c main_arg0 : S50000x128.Idx → EReal) (V c main_arg2 : S128x128.Idx → EReal)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  rw [Cert.KernelIdeal.Dense.pay0_eq]
  obtain ⟨e0, e1, e2, e3, e4, e5⟩ := idx_facts t
  funext y
  refine Cert.KernelIdeal.Dense.block_dense _ _ _ _ t.val ?_ ?_ y _ ?_ ?_
  · intro p k i hi0 hi1
    show V c main_arg0 (((cfg0.win 0).blk t).view.emb (ix2 p k)) = V c main_arg0 i
    refine congrArg _ ?_
    funext a; apply Fin.ext
    match a with
    | ⟨0, _⟩ => show win0_0.index t (0 : Fin 2) * 5000 + 1 * p.val = (i 0).val; omega
    | ⟨1, _⟩ => show win0_0.index t (1 : Fin 2) * 128 + 1 * k.val = (i 1).val; omega
  · intro q
    show V c main_arg2 (((cfg0.win 1).blk t).view.emb q) = V c main_arg2 q
    refine congrArg _ ?_
    funext a; apply Fin.ext
    match a with
    | ⟨0, _⟩ => show win0_1.index t (0 : Fin 2) * 128 + 1 * (q 0).val = (q 0).val; omega
    | ⟨1, _⟩ => show win0_1.index t (1 : Fin 2) * 128 + 1 * (q 1).val = (q 1).val; omega
  · show win0_2.index t (0 : Fin 2) * 5000 + 1 * (y 0).val = t.val * 5000 + (y 0).val; omega
  · show win0_2.index t (1 : Fin 2) * 128 + 1 * (y 1).val = (y 1).val; omega

/-- An index of the output array lies in step t's block iff each coordinate is in the block's range. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row r of the output lies in the block of step r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < 10 := by omega
  refine ⟨⟨(i 0).val / 5000, ht⟩, flush0_2 _, ?_⟩
  rw [mem_blk]
  obtain ⟨-, -, -, -, e4, e5⟩ := idx_facts ⟨(i 0).val / 5000, ht⟩
  have e4' : win0_2.index ⟨(i 0).val / 5000, ht⟩ (0 : Fin 2) = (i 0).val / 5000 := e4
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- After the ten steps the output array holds the product of the whole feature array, as the steps found it,
    with the weights. -/
theorem final (c : Dev nD) :
    (dat0 V c).arrAt 2 cfg0.N
      = dense (V c main_arg0 : S50000x128.Idx → EReal) (V c main_arg2 : S128x128.Idx → EReal) :=
  (dat0 V c).arrAt_eq_of_cover 2 _ (fun t _ => flushed_eq V c t) (fun i => cover i)

end Cert.KernelIdeal.Region0

end
-- ==== Proof.LibColumn.lean ====
/-
  Column forms of the layout operations, read at an index given by its coordinates, and a row sum as a
  finite sum.

  A reduction along the last axis that keeps the reduced axis as a unit axis produces a COLUMN: a vector of
  length `a` re-laid as an `[a, 1]` array.  Such a column is then spread along its unit axis to a full
  `[a, b]` array, every entry of row `p` being the column's entry at `p`.  The lemmas below read these two
  steps entry by entry, and read the sum of a row of an `[a, b]` array of extended reals as the sum over
  the `b` column coordinates.
-/
import Idealize.ShloMosaic.Lib.ValueLayout
import Idealize.ShloMosaic.PureOps.Ideal.Laws

noncomputable section

open scoped BigOperators

namespace Cert.LibColumn

open Idealize.ShloMosaic Idealize.ShloMosaic.ValueIdx

variable {α : Type}

/-- A vector of length `a` re-laid as the column `[a, 1]` has, at `(i, u)`, the vector's entry `i`:
    the row-major position of `(i, u)` in `[a, 1]` is `i · 1 + 0 = i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` has, at `(p, c)`, the column's entry of row `p`, whatever the
    column coordinate `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the last axis of an `[a, b]` array of extended reals, started from the zero word, is at
    row `r` the sum over the `b` entries of that row. -/
theorem rowSum_apply {a b : ℕ} (src : FVec Ideal ⟨2, ![a, b]⟩ .f32)
    (h : (⟨2, ![a, b]⟩ : Shape).Reduces [1] ⟨1, ![a]⟩) (r : Fin a) :
    multiReduction .add [1] ⟨1, ![a]⟩ src 0x00000000#32 h (.inl rfl) rfl (ix1 r)
      = ∑ k : Fin b, src (ix2 r k) := by
  refine (Ideal.multiReduction_add_single src 0x00000000#32 h (.inl rfl) rfl (ix1 r)).trans ?_
  refine Finset.sum_congr rfl fun k _ => congrArg src ?_
  funext d
  match d with
  | ⟨0, _⟩ => rfl
  | ⟨1, _⟩ => rfl

end Cert.LibColumn

end
-- ==== Proof.PayNorm.lean ====
/-
  The bias, row-normalisation and clip body, read at the extended reals.

  On a block of 5000 rows the body adds the bias row to every row, subtracts from each entry its row's sum divided
  by 128, divides the row's sum of squared differences by 128, adds the small constant, takes the reciprocal square
  root, multiplies the differences by it and by the scale row, adds the shift row, and takes the maximum with zero.
  The body is first split into its five stages (the split is by definition); each stage is then read at an entry
  (p, k): a row sum kept as a column and spread back along the row reads, at (p, k), the sum over row p.
-/
import proofs.«154800_j69226282877028_1_alg».proof.Proof.Gen.KernelIdeal.Skeleton
import proofs.«154800_j69226282877028_1_alg».proof.Proof.Spec
import proofs.«154800_j69226282877028_1_alg».proof.Proof.LibColumn
import Idealize.ShloMosaic.Lib.Pipeline.Value
import Idealize.ShloMosaic.Lib.ValueLayout

noncomputable section

namespace Cert.KernelIdeal.Norm

open Cert.KernelIdeal Cert.KernelIdeal.Gen Idealize.ShloMosaic Idealize.ShloMosaic.ValueIdx Cert.GcnSpec

/-! ## The body's stages -/

/-- The operand block with the bias row added to every row. -/
def stShift (x : FVec Ideal S5000x128 .f32) (b : FVec Ideal S1x128 .f32) : FVec Ideal S5000x128 .f32 :=
  addf (shapeCast S5000x128 x shapeCasts_S5000x128_S5000x128)
    (broadcastTo S5000x128 (shapeCast S1x128 b shapeCasts_S1x128_S1x128) broadcasts_S1x128_S5000x128)

/-- Each row's sum divided by 128, kept as a column and spread back along the row. -/
def stMean (Z : FVec Ideal S5000x128 .f32) : FVec Ideal S5000x128 .f32 :=
  broadcastTo S5000x128 (divf (shapeCast S5000x1 (multiReduction .add [1] S5000 Z 0x00000000#32 reduces_S5000x128_S5000 (.inl rfl) rfl)
    shapeCasts_S5000_S5000x1) (broadcast S5000x1 (Scalar.ofBits .f32 0x43000000#32))) broadcasts_S5000x1_S5000x128

/-- Each row's reciprocal square root of (its sum of squares divided by 128, plus the small constant), spread along
    the row. -/
def stInv (C : FVec Ideal S5000x128 .f32) : FVec Ideal S5000x128 .f32 :=
  broadcastTo S5000x128 (rsqrt (addf (divf (shapeCast S5000x1 (multiReduction .add [1] S5000 (mulf C C) 0x00000000#32
    reduces_S5000x128_S5000 (.inl rfl) rfl) shapeCasts_S5000_S5000x1) (broadcast S5000x1 (Scalar.ofBits .f32 0x43000000#32)))
    (broadcast S5000x1 (Scalar.ofBits .f32 0x3727C5AC#32)))) broadcasts_S5000x1_S5000x128

/-- Scale, shift and clip at zero. -/
def stOut (C : FVec Ideal S5000x128 .f32) (g be : FVec Ideal S1x128 .f32) : FVec Ideal S5000x128 .f32 :=
  maximumf (addf (mulf (mulf C (stInv C))
      (broadcastTo S5000x128 (shapeCast S1x128 g shapeCasts_S1x128_S1x128) broadcasts_S1x128_S5000x128))
      (broadcastTo S5000x128 (shapeCast S1x128 be shapeCasts_S1x128_S1x128) broadcasts_S1x128_S5000x128))
    (broadcast S5000x128 (Scalar.ofBits .f32 0x00000000#32))

/-- The first normalisation body is the composition of the stages. -/
theorem pay1_stages (x : FVec Ideal S5000x128 .f32) (b g be : FVec Ideal S1x128 .f32) :
    k1_pay1 (F := Ideal) x b g be = stOut (subf (stShift x b) (stMean (stShift x b))) g be := rfl

/-- So is the second. -/
theorem pay3_stages (x : FVec Ideal S5000x128 .f32) (b g be : FVec Ideal S1x128 .f32) :
    k3_pay1 (F := Ideal) x b g be = stOut (subf (stShift x b) (stMean (stShift x b))) g be := rfl

/-! ## Each stage at an entry -/

theorem row_apply (v : FVec Ideal S1x128 .f32) (p : Fin 5000) (k : Fin 128) :
    broadcastTo S5000x128 (shapeCast S1x128 v shapeCasts_S1x128_S1x128) broadcasts_S1x128_S5000x128 (ix2 p k)
      = v (ix2 (0 : Fin 1) k) := by
  rw [shapeCast_self]
  exact broadcastTo_1b_ab_apply v broadcasts_S1x128_S5000x128 p k

theorem stShift_apply (x : FVec Ideal S5000x128 .f32) (b : FVec Ideal S1x128 .f32) (p : Fin 5000) (k : Fin 128) :
    stShift x b (ix2 p k) = shifted x b (ix2 p k) := by
  show shapeCast S5000x128 x shapeCasts_S5000x128_S5000x128 (ix2 p k)
      + broadcastTo S5000x128 (shapeCast S1x128 b shapeCasts_S1x128_S1x128) broadcasts_S1x128_S5000x128 (ix2 p k)
    = x (ix2 p k) + b (ix2 (0 : Fin 1) k)
  rw [row_apply, shapeCast_self]

/-- A row sum divided by 128, as a column spread along the row, is the row's mean at every entry of the row. -/
theorem column_apply (S : FVec Ideal S5000x128 .f32) (p : Fin 5000) (k : Fin 128) :
    broadcastTo S5000x128 (divf (shapeCast S5000x1 (multiReduction .add [1] S5000 S 0x00000000#32 reduces_S5000x128_S5000 (.inl rfl) rfl)
      shapeCasts_S5000_S5000x1) (broadcast S5000x1 (Scalar.ofBits .f32 0x43000000#32))) broadcasts_S5000x1_S5000x128 (ix2 p k)
      = rowMean S p := by
  refine (Cert.LibColumn.broadcastTo_a1_ab_apply _ broadcasts_S5000x1_S5000x128 p k).trans ?_
  show Ideal.div (shapeCast S5000x1 (multiReduction .add [1] S5000 S 0x00000000#32 reduces_S5000x128_S5000 (.inl rfl) rfl)
      shapeCasts_S5000_S5000x1 (ix2 p (0 : Fin 1))) width = Ideal.div (∑ j : Fin 128, S (ix2 p j)) width
  exact congrArg (fun s => Ideal.div s width)
    ((Cert.LibColumn.shapeCast_a_a1_apply _ shapeCasts_S5000_S5000x1 p 0).trans
      (Cert.LibColumn.rowSum_apply S reduces_S5000x128_S5000 p))

theorem stMean_apply (Z : FVec Ideal S5000x128 .f32) (p : Fin 5000) (k : Fin 128) : stMean Z (ix2 p k) = rowMean Z p :=
  column_apply Z p k

theorem stInv_apply (C : FVec Ideal S5000x128 .f32) (p : Fin 5000) (k : Fin 128) :
    stInv C (ix2 p k) = Ideal.rsqrt (rowMean (fun i => C i * C i) p + eps) := by
  refine (Cert.LibColumn.broadcastTo_a1_ab_apply _ broadcasts_S5000x1_S5000x128 p k).trans ?_
  show Ideal.rsqrt (Ideal.div (shapeCast S5000x1 (multiReduction .add [1] S5000 (mulf C C) 0x00000000#32
      reduces_S5000x128_S5000 (.inl rfl) rfl) shapeCasts_S5000_S5000x1 (ix2 p (0 : Fin 1))) width + eps)
    = Ideal.rsqrt (Ideal.div (∑ j : Fin 128, (fun i => C i * C i) (ix2 p j)) width + eps)
  exact congrArg (fun s => Ideal.rsqrt (Ideal.div s width + eps))
    ((Cert.LibColumn.shapeCast_a_a1_apply _ shapeCasts_S5000_S5000x1 p 0).trans
      (Cert.LibColumn.rowSum_apply (mulf C C) reduces_S5000x128_S5000 p))

/-- The body at an entry is the specification's normalised, clipped entry. -/
theorem stages_apply (x : FVec Ideal S5000x128 .f32) (b g be : FVec Ideal S1x128 .f32) (p : Fin 5000) (k : Fin 128) :
    stOut (subf (stShift x b) (stMean (stShift x b))) g be (ix2 p k) = normRelu x b g be (ix2 p k) := by
  have hZ : stShift x b = shifted x b := funext fun j => by
    obtain ⟨r, c, rfl⟩ : ∃ (r : Fin 5000) (c : Fin 128), j = ix2 r c := ⟨j 0, j 1, eq_ix2 j⟩
    exact stShift_apply x b r c
  have hC : subf (stShift x b) (stMean (stShift x b)) = centred (shifted x b) := funext fun j => by
    obtain ⟨r, c, rfl⟩ : ∃ (r : Fin 5000) (c : Fin 128), j = ix2 r c := ⟨j 0, j 1, eq_ix2 j⟩
    show stShift x b (ix2 r c) - stMean (stShift x b) (ix2 r c) = shifted x b (ix2 r c) - rowMean (shifted x b) r
    rw [stMean_apply, hZ]
  rw [hC]
  show max (centred (shifted x b) (ix2 p k) * stInv (centred (shifted x b)) (ix2 p k)
      * broadcastTo S5000x128 (shapeCast S1x128 g shapeCasts_S1x128_S1x128) broadcasts_S1x128_S5000x128 (ix2 p k)
      + broadcastTo S5000x128 (shapeCast S1x128 be shapeCasts_S1x128_S1x128) broadcasts_S1x128_S5000x128 (ix2 p k))
      (Ideal.ofBits .f32 0x00000000#32)
    = max (centred (shifted x b) (ix2 p k)
      * Ideal.rsqrt (rowMean (fun i => centred (shifted x b) i * centred (shifted x b) i) p + eps)
      * g (ix2 (0 : Fin 1) k) + be (ix2 (0 : Fin 1) k)) (Ideal.ofBits .f32 0x00000000#32)
  rw [stInv_apply, row_apply, row_apply]

/-- The first normalisation body is the specification's map on its block. -/
theorem pay1_eq (x : FVec Ideal S5000x128 .f32) (b g be : FVec Ideal S1x128 .f32) :
    k1_pay1 (F := Ideal) x b g be = normRelu x b g be := funext fun j => by
  obtain ⟨r, c, rfl⟩ : ∃ (r : Fin 5000) (c : Fin 128), j = ix2 r c := ⟨j 0, j 1, eq_ix2 j⟩
  rw [pay1_stages]; exact stages_apply x b g be r c

/-- So is the second. -/
theorem pay3_eq (x : FVec Ideal S5000x128 .f32) (b g be : FVec Ideal S1x128 .f32) :
    k3_pay1 (F := Ideal) x b g be = normRelu x b g be := funext fun j => by
  obtain ⟨r, c, rfl⟩ : ∃ (r : Fin 5000) (c : Fin 128), j = ix2 r c := ⟨j 0, j 1, eq_ix2 j⟩
  rw [pay3_stages]; exact stages_apply x b g be r c

/-- Block t of the normalised array: if a 5000-row operand block holds rows [5000 t, 5000 t + 5000) of Y and the three
    row blocks are the three rows, the body's entry y is the whole array's entry at the index i with the same
    column and row 5000 t + (y's row). -/
theorem block_norm (Y : (⟨2, ![50000, 128]⟩ : Shape).Idx → EReal) (B G BE : (⟨2, ![1, 128]⟩ : Shape).Idx → EReal)
    (x0 : (⟨2, ![5000, 128]⟩ : Shape).Idx → EReal) (b g be : (⟨2, ![1, 128]⟩ : Shape).Idx → EReal) (t : Nat)
    (h0 : ∀ (p : Fin 5000) (k : Fin 128) (i : (⟨2, ![50000, 128]⟩ : Shape).Idx),
      (i 0).val = t * 5000 + p.val → (i 1).val = k.val → x0 (ix2 p k) = Y i)
    (hb : ∀ q, b q = B q) (hg : ∀ q, g q = G q) (hbe : ∀ q, be q = BE q)
    (y : (⟨2, ![5000, 128]⟩ : Shape).Idx) (i : (⟨2, ![50000, 128]⟩ : Shape).Idx)
    (hi0 : (i 0).val = t * 5000 + (y 0).val) (hi1 : (i 1).val = (y 1).val) :
    normRelu x0 b g be y = normRelu Y B G BE i := by
  have e1 : b = B := funext hb
  have e2 : g = G := funext hg
  have e3 : be = BE := funext hbe
  subst e1 e2 e3
  have hy : y = ix2 (y 0) (y 1) := eq_ix2 y
  have hi : i = ix2 (i 0) (y 1) := by
    funext a; apply Fin.ext
    match a with
    | ⟨0, _⟩ => rfl
    | ⟨1, _⟩ => exact hi1
  rw [hy, hi]
  exact normRelu_row Y x0 b g be (i 0) (y 0) (y 1) (fun k => h0 (y 0) k (ix2 (i 0) k) hi0 rfl)

end Cert.KernelIdeal.Norm

end
-- ==== Proof.Region1.lean ====
/-
  The first layer's bias, row normalisation and clip, from row blocks to the whole array.

  The map is applied ten times, once per block of 5000 consecutive rows, each time with the same three parameter
  rows.  It acts on each row by itself, so what step t writes is exactly block t of the map applied to the WHOLE
  array; the ten blocks tile the 50000 rows (row r lies in block r / 5000), so the output array ends holding the map
  of the whole operand.
-/
import proofs.«154800_j69226282877028_1_alg».proof.Proof.Gen.KernelIdeal.Frame
import proofs.«154800_j69226282877028_1_alg».proof.Proof.PayNorm
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.GcnSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the ten steps: the operand block and the output block are block t along the rows and
    the only block along the columns; each parameter row's block is always the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What step t writes back is block t of the map applied to the whole operand. -/
theorem flushed_eq (c : Dev nD) (t : Fin cfg1.N) :
    (dat1 V c).flushed 4 t = ((cfg1.win 4).blk t).view.read (Elt Ideal)
      (normRelu (V c main_v43 : S50000x128.Idx → EReal) (V c main_v44 : S1x128.Idx → EReal)
        (V c main_v45 : S1x128.Idx → EReal) (V c main_v46 : S1x128.Idx → EReal)) := by
  show (cfg1.win 4).cut (grid1.coords t) ((dat1 V c).after 4 t) = _
  rw [after1_4]
  unfold out1_4
  rw [View.canon_unit_zero origin]
  simp only [View.ld_unit_zero (S := S5000x128) origin, View.ld_unit_zero (S := S1x128) origin]
  rw [Cert.KernelIdeal.Norm.pay1_eq]
  obtain ⟨e0, e1, e2, e3, e4, e5, e6, e7, e8, e9⟩ := idx_facts t
  funext y
  refine Cert.KernelIdeal.Norm.block_norm _ _ _ _ _ _ _ _ t.val ?_ ?_ ?_ ?_ y _ ?_ ?_
  · intro p k i hi0 hi1
    show V c main_v43 (((cfg1.win 0).blk t).view.emb (ix2 p k)) = V c main_v43 i
    refine congrArg _ ?_
    funext a; apply Fin.ext
    match a with
    | ⟨0, _⟩ => show win1_0.index t (0 : Fin 2) * 5000 + 1 * p.val = (i 0).val; omega
    | ⟨1, _⟩ => show win1_0.index t (1 : Fin 2) * 128 + 1 * k.val = (i 1).val; omega
  · intro q
    show V c main_v44 (((cfg1.win 1).blk t).view.emb q) = V c main_v44 q
    refine congrArg _ ?_
    funext a; apply Fin.ext
    match a with
    | ⟨0, _⟩ => show win1_1.index t (0 : Fin 2) * 1 + 1 * (q 0).val = (q 0).val; omega
    | ⟨1, _⟩ => show win1_1.index t (1 : Fin 2) * 128 + 1 * (q 1).val = (q 1).val; omega
  · intro q
    show V c main_v45 (((cfg1.win 2).blk t).view.emb q) = V c main_v45 q
    refine congrArg _ ?_
    funext a; apply Fin.ext
    match a with
    | ⟨0, _⟩ => show win1_2.index t (0 : Fin 2) * 1 + 1 * (q 0).val = (q 0).val; omega
    | ⟨1, _⟩ => show win1_2.index t (1 : Fin 2) * 128 + 1 * (q 1).val = (q 1).val; omega
  · intro q
    show V c main_v46 (((cfg1.win 3).blk t).view.emb q) = V c main_v46 q
    refine congrArg _ ?_
    funext a; apply Fin.ext
    match a with
    | ⟨0, _⟩ => show win1_3.index t (0 : Fin 2) * 1 + 1 * (q 0).val = (q 0).val; omega
    | ⟨1, _⟩ => show win1_3.index t (1 : Fin 2) * 128 + 1 * (q 1).val = (q 1).val; omega
  · show win1_4.index t (0 : Fin 2) * 5000 + 1 * (y 0).val = t.val * 5000 + (y 0).val; omega
  · show win1_4.index t (1 : Fin 2) * 128 + 1 * (y 1).val = (y 1).val; omega

/-- An index of the output array lies in step t's block iff each coordinate is in the block's range. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v47).slice (win1_4.rect t)).set ↔ _
  rw [View.set_slice_whole, Rect.mem_set_unit]
  exact Iff.rfl

/-- Row r of the output lies in the block of step r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < 10 := by omega
  refine ⟨⟨(i 0).val / 5000, ht⟩, flush1_4 _, ?_⟩
  rw [mem_blk]
  obtain ⟨-, -, -, -, -, -, -, -, e8, e9⟩ := idx_facts ⟨(i 0).val / 5000, ht⟩
  have e8' : win1_4.index ⟨(i 0).val / 5000, ht⟩ (0 : Fin 2) = (i 0).val / 5000 := e8
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-- After the ten steps the output array holds the map of the whole operand, as the steps found it, with the three
    parameter rows as the steps found them. -/
theorem final (c : Dev nD) :
    (dat1 V c).arrAt 4 cfg1.N
      = normRelu (V c main_v43 : S50000x128.Idx → EReal) (V c main_v44 : S1x128.Idx → EReal)
          (V c main_v45 : S1x128.Idx → EReal) (V c main_v46 : S1x128.Idx → EReal) :=
  (dat1 V c).arrAt_eq_of_cover 4 _ (fun t _ => flushed_eq V c t) (fun i => cover i)

end Cert.KernelIdeal.Region1

end
-- ==== Proof.Region2.lean ====
/-
  The second layer's product, from row blocks to the whole array.

  The product is computed ten times, once per block of 5000 consecutive rows: at step t the rows
  [5000 t, 5000 t + 5000) of the feature array and the whole weight matrix are multiplied, and the result is written
  to the same rows of the output.  A row of a product depends only on the same row of the left operand, so what
  step t writes is exactly block t of the product of the WHOLE feature array with the weights; the ten blocks tile
  the 50000 rows (row r lies in block r / 5000), so the output array ends holding that product.
-/
import proofs.«154800_j69226282877028_1_alg».proof.Proof.Gen.KernelIdeal.Frame
import proofs.«154800_j69226282877028_1_alg».proof.Proof.PayDense
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.GcnSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the ten steps: the feature block and the output block are block t along the rows and
    the only block along the columns; the weight block is always the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What step t writes back is block t of the product of the whole feature array with the weights. -/
theorem flushed_eq (c : Dev nD) (t : Fin cfg2.N) :
    (dat2 V c).flushed 2 t = ((cfg2.win 2).blk t).view.read (Elt Ideal)
      (dense (V c main_v47 : S50000x128.Idx → EReal) (V c main_arg6 : S128x128.Idx → EReal)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  rw [Cert.KernelIdeal.Dense.pay2_eq]
  obtain ⟨e0, e1, e2, e3, e4, e5⟩ := idx_facts t
  funext y
  refine Cert.KernelIdeal.Dense.block_dense _ _ _ _ t.val ?_ ?_ y _ ?_ ?_
  · intro p k i hi0 hi1
    show V c main_v47 (((cfg2.win 0).blk t).view.emb (ix2 p k)) = V c main_v47 i
    refine congrArg _ ?_
    funext a; apply Fin.ext
    match a with
    | ⟨0, _⟩ => show win2_0.index t (0 : Fin 2) * 5000 + 1 * p.val = (i 0).val; omega
    | ⟨1, _⟩ => show win2_0.index t (1 : Fin 2) * 128 + 1 * k.val = (i 1).val; omega
  · intro q
    show V c main_arg6 (((cfg2.win 1).blk t).view.emb q) = V c main_arg6 q
    refine congrArg _ ?_
    funext a; apply Fin.ext
    match a with
    | ⟨0, _⟩ => show win2_1.index t (0 : Fin 2) * 128 + 1 * (q 0).val = (q 0).val; omega
    | ⟨1, _⟩ => show win2_1.index t (1 : Fin 2) * 128 + 1 * (q 1).val = (q 1).val; omega
  · show win2_2.index t (0 : Fin 2) * 5000 + 1 * (y 0).val = t.val * 5000 + (y 0).val; omega
  · show win2_2.index t (1 : Fin 2) * 128 + 1 * (y 1).val = (y 1).val; omega

/-- An index of the output array lies in step t's block iff each coordinate is in the block's range. -/
theorem mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- Row r of the output lies in the block of step r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have ht : (i 0).val / 5000 < 10 := by omega
  refine ⟨⟨(i 0).val / 5000, ht⟩, flush2_2 _, ?_⟩
  rw [mem_blk]
  obtain ⟨-, -, -, -, e4, e5⟩ := idx_facts ⟨(i 0).val / 5000, ht⟩
  have e4' : win2_2.index ⟨(i 0).val / 5000, ht⟩ (0 : Fin 2) = (i 0).val / 5000 := e4
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    omega

/-- After the ten steps the output array holds the product of the whole feature array, as the steps found it,
    with the weights. -/
theorem final (c : Dev nD) :
    (dat2 V c).arrAt 2 cfg2.N
      = dense (V c main_v47 : S50000x128.Idx → EReal) (V c main_arg6 : S128x128.Idx → EReal) :=
  (dat2 V c).arrAt_eq_of_cover 2 _ (fun t _ => flushed_eq V c t) (fun i => cover i)

end Cert.KernelIdeal.Region2

end
-- ==== Proof.Region3.lean ====
/-
  The second layer's bias, row normalisation and clip, from row blocks to the whole array.

  The map is applied ten times, once per block of 5000 consecutive rows, each time with the same three parameter
  rows.  It acts on each row by itself, so what step t writes is exactly block t of the map applied to the WHOLE
  array; the ten blocks tile the 50000 rows (row r lies in block r / 5000), so the output array ends holding the map
  of the whole operand.
-/
import proofs.«154800_j69226282877028_1_alg».proof.Proof.Gen.KernelIdeal.Frame
import proofs.«154800_j69226282877028_1_alg».proof.Proof.PayNorm
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Cert.GcnSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the ten steps: the operand block and the output block are block t along the rows and
    the only block along the columns; each parameter row's block is always the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What step t writes back is block t of the map applied to the whole operand. -/
theorem flushed_eq (c : Dev nD) (t : Fin cfg3.N) :
    (dat3 V c).flushed 4 t = ((cfg3.win 4).blk t).view.read (Elt Ideal)
      (normRelu (V c main_v61 : S50000x128.Idx → EReal) (V c main_v62 : S1x128.Idx → EReal)
        (V c main_v63 : S1x128.Idx → EReal) (V c main_v64 : S1x128.Idx → EReal)) := by
  show (cfg3.win 4).cut (grid3.coords t) ((dat3 V c).after 4 t) = _
  rw [after3_4]
  unfold out3_4
  rw [View.canon_unit_zero origin]
  simp only [View.ld_unit_zero (S := S5000x128) origin, View.ld_unit_zero (S := S1x128) origin]
  rw [Cert.KernelIdeal.Norm.pay3_eq]
  obtain ⟨e0, e1, e2, e3, e4, e5, e6, e7, e8, e9⟩ := idx_facts t
  funext y
  refine Cert.KernelIdeal.Norm.block_norm _ _ _ _ _ _ _ _ t.val ?_ ?_ ?_ ?_ y _ ?_ ?_
  · intro p k i hi0 hi1
    show V c main_v61 (((cfg3.win 0).blk t).view.emb (ix2 p k)) = V c main_v61 i
    refine congrArg _ ?_
    funext a; apply Fin.ext
    match a with
    | ⟨0, _⟩ => show win3_0.index t (0 : Fin 2) * 5000 + 1 * p.val = (i 0).val; omega
    | ⟨1, _⟩ => show win3_0.index t (1 : Fin 2) * 128 + 1 * k.val = (i 1).val; omega
  · intro q
    show V c main_v62 (((cfg3.win 1).blk t).view.emb q) = V c main_v62 q
    refine congrArg _ ?_
    funext a; apply Fin.ext
    match a with
    | ⟨0, _⟩ => show win3_1.index t (0 : Fin 2) * 1 + 1 * (q 0).val = (q 0).val; omega
    | ⟨1, _⟩ => show win3_1.index t (1 : Fin 2) * 128 + 1 * (q 1).val = (q 1).val; omega
  · intro q
    show V c main_v63 (((cfg3.win 2).blk t).view.emb q) = V c main_v63 q
    refine congrArg _ ?_
    funext a; apply Fin.ext
    match a with
    | ⟨0, _⟩ => show win3_2.index t (0 : Fin 2) * 1 + 1 * (q 0).val = (q 0).val; omega
    | ⟨1, _⟩ => show win3_2.index t (1 : Fin 2) * 128 + 1 * (q 1).val = (q 1).val; omega
  · intro q
    show V c main_v64 (((cfg3.win 3).blk t).view.emb q) = V c main_v64 q
    refine congrArg _ ?_
    funext a; apply Fin.ext
    match a with
    | ⟨0, _⟩ => show win3_3.index t (0 : Fin 2) * 1 + 1 * (q 0).val = (q 0).val; omega
    | ⟨1, _⟩ => show win3_3.index t (1 : Fin 2) * 128 + 1 * (q 1).val = (q 1).val; omega
  · show win3_4.index t (0 : Fin 2) * 5000 + 1 * (y 0).val = t.val * 5000 + (y 0).val; omega
  · show win3_4.index t (1 : Fin 2) * 128 + 1 * (y 1).val = (y 1).val; omega

/-- An index of the output array lies in step t's block iff each coordinate is in the block's range. -/
theorem mem_blk (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v65).slice (win3_4.rect t)).set ↔ _
  rw [View.set_slice_whole, Rect.mem_set_unit]
  exact Iff.rfl

/-- Row r of the output lies in the block of step r / 5000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have ht : (i 0).val / 5000 < 10 := by omega
  refine ⟨⟨(i 0).val / 5000, ht⟩, flush3_4 _, ?_⟩
  rw [mem_blk]
  obtain ⟨-, -, -, -, -, -, -, -, e8, e9⟩ := idx_facts ⟨(i 0).val / 5000, ht⟩
  have e8' : win3_4.index ⟨(i 0).val / 5000, ht⟩ (0 : Fin 2) = (i 0).val / 5000 := e8
  intro a
  match a with
  | ⟨0, _⟩ =>
    show win3_4.index ⟨(i 0).val / 5000, ht⟩ (0 : Fin 2) * 5000 ≤ (i 0).val
      ∧ (i 0).val < win3_4.index ⟨(i 0).val / 5000, ht⟩ (0 : Fin 2) * 5000 + 5000
    omega
  | ⟨1, _⟩ =>
    show win3_4.index ⟨(i 0).val / 5000, ht⟩ (1 : Fin 2) * 128 ≤ (i 1).val
      ∧ (i 1).val < win3_4.index ⟨(i 0).val / 5000, ht⟩ (1 : Fin 2) * 128 + 128
    omega

/-- After the ten steps the output array holds the map of the whole operand, as the steps found it, with the three
    parameter rows as the steps found them. -/
theorem final (c : Dev nD) :
    (dat3 V c).arrAt 4 cfg3.N
      = normRelu (V c main_v61 : S50000x128.Idx → EReal) (V c main_v62 : S1x128.Idx → EReal)
          (V c main_v63 : S1x128.Idx → EReal) (V c main_v64 : S1x128.Idx → EReal) :=
  (dat3 V c).arrAt_eq_of_cover 4 _ (fun t _ => flushed_eq V c t) (fun i => cover i)

end Cert.KernelIdeal.Region3

end
-- ==== Proof.Region4.lean ====
/-
  The third layer's product, from row blocks to the whole array.

  The product is computed ten times, once per block of 5000 consecutive rows: at step t the rows
  [5000 t, 5000 t + 5000) of the feature array and the whole weight matrix are multiplied, and the result is written
  to the same rows of the output.  A row of a product depends only on the same row of the left operand, so what
  step t writes is exactly block t of the product of the WHOLE feature array with the weights; the ten blocks tile
  the 50000 rows (row r lies in block r / 5000), so the output array ends holding that product.
-/
import proofs.«154800_j69226282877028_1_alg».proof.Proof.Gen.KernelIdeal.Frame
import proofs.«154800_j69226282877028_1_alg».proof.Proof.PayDense
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem Cert.GcnSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block index maps over the ten steps: the feature block and the output block are block t along the rows and
    the only block along the columns; the weight block is always the whole matrix. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What step t writes back is block t of the product of the whole feature array with the weights. -/
theorem flushed_eq (c : Dev nD) (t : Fin cfg4.N) :
    (dat4 V c).flushed 2 t = ((cfg4.win 2).blk t).view.read (Elt Ideal)
      (dense (V c main_v65 : S50000x128.Idx → EReal) (V c main_arg10 : S128x64.Idx → EReal)) := by
  show (cfg4.win 2).cut (grid4.coords t) ((dat4 V c).after 2 t) = _
  rw [after4_2]
  unfold out4_2
  rw [View.canon_unit_zero origin]
  simp only [View.ld_unit_zero (S := S5000x128) origin, View.ld_unit_zero (S := S128x64) origin]
  rw [Cert.KernelIdeal.Dense.pay4_eq]
  obtain ⟨e0, e1, e2, e3, e4, e5⟩ := idx_facts t
  funext y
  refine Cert.KernelIdeal.Dense.block_dense _ _ _ _ t.val ?_ ?_ y _ ?_ ?_
  · intro p k i hi0 hi1
    show V c main_v65 (((cfg4.win 0).blk t).view.emb (ix2 p k)) = V c main_v65 i
    refine congrArg _ ?_
    funext a; apply Fin.ext
    match a with
    | ⟨0, _⟩ => show win4_0.index t (0 : Fin 2) * 5000 + 1 * p.val = (i 0).val; omega
    | ⟨1, _⟩ => show win4_0.index t (1 : Fin 2) * 128 + 1 * k.val = (i 1).val; omega
  · intro q
    show V c main_arg10 (((cfg4.win 1).blk t).view.emb q) = V c main_arg10 q
    refine congrArg _ ?_
    funext a; apply Fin.ext
    match a with
    | ⟨0, _⟩ => show win4_1.index t (0 : Fin 2) * 128 + 1 * (q 0).val = (q 0).val; omega
    | ⟨1, _⟩ => show win4_1.index t (1 : Fin 2) * 64 + 1 * (q 1).val = (q 1).val; omega
  · show win4_2.index t (0 : Fin 2) * 5000 + 1 * (y 0).val = t.val * 5000 + (y 0).val; omega
  · show win4_2.index t (1 : Fin 2) * 64 + 1 * (y 1).val = (y 1).val; omega

/-- An index of the output array lies in step t's block iff each coordinate is in the block's range. -/
theorem mem_blk (t : Fin cfg4.N) (i : S50000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v66).slice (win4_2.rect t)).set ↔ _
  rw [View.set_slice_whole, Rect.mem_set_unit]
  exact Iff.rfl

/-- Row r of the output lies in the block of step r / 5000. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have ht : (i 0).val / 5000 < 10 := by omega
  refine ⟨⟨(i 0).val / 5000, ht⟩, flush4_2 _, ?_⟩
  rw [mem_blk]
  obtain ⟨-, -, -, -, e4, e5⟩ := idx_facts ⟨(i 0).val / 5000, ht⟩
  have e4' : win4_2.index ⟨(i 0).val / 5000, ht⟩ (0 : Fin 2) = (i 0).val / 5000 := e4
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    omega
  | ⟨1, _⟩ =>
    show win4_2.index ⟨(i 0).val / 5000, ht⟩ (1 : Fin 2) * 64 ≤ (i 1).val
      ∧ (i 1).val < win4_2.index ⟨(i 0).val / 5000, ht⟩ (1 : Fin 2) * 64 + 64
    omega

/-- After the ten steps the output array holds the product of the whole feature array, as the steps found it,
    with the weights. -/
theorem final (c : Dev nD) :
    (dat4 V c).arrAt 2 cfg4.N
      = dense (V c main_v65 : S50000x128.Idx → EReal) (V c main_arg10 : S128x64.Idx → EReal) :=
  (dat4 V c).arrAt_eq_of_cover 2 _ (fun t _ => flushed_eq V c t) (fun i => cover i)

end Cert.KernelIdeal.Region4

end
-- ==== Proof.RefLayers.lean ====
/-
  The reference program's dense steps, read as the specification's maps.

  Each of its three contractions of the node features with a weight matrix is the dense layer (the sum over the 128
  contracted features), and each of its two chains of host operations after a neighbourhood sum — add the bias, take
  the row mean, centre, take the row variance, add the small constant, take the reciprocal square root, scale, shift,
  clip at zero — is the row normalisation map, entry by entry: a row mean kept as a column and broadcast back reads at
  (r, c) the mean of row r, and a parameter vector broadcast over the rows reads at (r, c) its entry c.
-/
import proofs.«154800_j69226282877028_1_alg».proof.Proof.RefRead
import proofs.«154800_j69226282877028_1_alg».proof.Proof.Spec
import proofs.«154800_j69226282877028_1_alg».proof.Proof.LibPlainDot

noncomputable section

open scoped BigOperators

namespace Cert.ReferenceIdeal.Layers

open Cert.ReferenceIdeal Cert.ReferenceIdeal.Gen Cert.ReferenceIdeal.ReadP Idealize.ShloMosaic Idealize.ShloMosaic.ValueIdx
open Cert.GcnSpec

/-! ## The three contractions -/

theorem dot128 (l : FVec Ideal S50000x128 .f32) (w : FVec Ideal S128x128 .f32) :
    Host.dotGeneral (F := Ideal) dot_S50000x128_S128x128_S50000x128_1_0_0_1_n_n none l w = dense l w := funext fun j =>
  Cert.LibPlainDot.dotGeneral_plain dot_S50000x128_S128x128_S50000x128_1_0_0_1_n_n rfl rfl
    (fun _ _ => rfl) (fun _ _ => rfl) (fun _ _ => rfl) (fun _ _ => rfl) none _ l w j

theorem dot64 (l : FVec Ideal S50000x128 .f32) (w : FVec Ideal S128x64 .f32) :
    Host.dotGeneral (F := Ideal) dot_S50000x128_S128x64_S50000x64_1_0_0_1_n_n none l w = dense l w := funext fun j =>
  Cert.LibPlainDot.dotGeneral_plain dot_S50000x128_S128x64_S50000x64_1_0_0_1_n_n rfl rfl
    (fun _ _ => rfl) (fun _ _ => rfl) (fun _ _ => rfl) (fun _ _ => rfl) none _ l w j

/-! ## The first normalisation chain -/

section first

variable (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal))

theorem first_shift (r : Fin 50000) (c : Fin 128) :
    val_main_v46 (F := Ideal) x0 x1 x2 x3 (ix2 r c) = shifted (val_main_v43 (F := Ideal) x0 x1 x2) (asRow x3) (ix2 r c) := by
  rw [val_main_v46_apply, val_main_v45_apply, val_main_v44_apply]
  show (val_main_v43 (F := Ideal) x0 x1 x2) (ix2 r c) + x3 (idx_main_v44 (idx_main_v45 (ix2 r c))) = (val_main_v43 (F := Ideal) x0 x1 x2) (ix2 r c) + x3 (ix1 c)
  refine congrArg (fun t => (val_main_v43 (F := Ideal) x0 x1 x2) (ix2 r c) + x3 t) ?_
  funext a; match a with | ⟨0, _⟩ => rfl

theorem first_mean (r : Fin 50000) (u : Fin 1) :
    val_main_v50 (F := Ideal) x0 x1 x2 x3 (ix2 r u) = rowMean (shifted (val_main_v43 (F := Ideal) x0 x1 x2) (asRow x3)) r := by
  rw [val_main_v50_apply, val_main_v48_apply, val_main_v47_apply, val_main_v49_apply, val_main_cst_10_apply, val_main_cst_9_apply]
  show Ideal.div (Ideal.ofBits .f32 0x00000000#32 + ∑ k : Fin 128, val_main_v46 (F := Ideal) x0 x1 x2 x3 (idx_main_v47 (idx_main_v48 (ix2 r u)) k))
      (Ideal.ofBits .f32 0x43000000#32) = Ideal.div (∑ k : Fin 128, (shifted (val_main_v43 (F := Ideal) x0 x1 x2) (asRow x3)) (ix2 r k)) width
  rw [Ideal.ofBits_zero_f32, zero_add]
  refine congrArg (fun s => Ideal.div s width) (Finset.sum_congr rfl fun k _ => ?_)
  refine (congrArg (val_main_v46 (F := Ideal) x0 x1 x2 x3) ?_).trans (first_shift x0 x1 x2 x3 r k)
  funext a; match a with | ⟨0, _⟩ => rfl | ⟨1, _⟩ => rfl

theorem first_centre (r : Fin 50000) (c : Fin 128) :
    val_main_v52 (F := Ideal) x0 x1 x2 x3 (ix2 r c) = centred (shifted (val_main_v43 (F := Ideal) x0 x1 x2) (asRow x3)) (ix2 r c) := by
  rw [val_main_v52_apply, val_main_v51_apply]
  show val_main_v46 (F := Ideal) x0 x1 x2 x3 (ix2 r c) - val_main_v50 (F := Ideal) x0 x1 x2 x3 (idx_main_v51 (ix2 r c)) = (shifted (val_main_v43 (F := Ideal) x0 x1 x2) (asRow x3)) (ix2 r c) - rowMean (shifted (val_main_v43 (F := Ideal) x0 x1 x2) (asRow x3)) r
  rw [first_shift]
  refine congrArg (fun t => (shifted (val_main_v43 (F := Ideal) x0 x1 x2) (asRow x3)) (ix2 r c) - t) ?_
  refine (congrArg (val_main_v50 (F := Ideal) x0 x1 x2 x3) ?_).trans (first_mean x0 x1 x2 x3 r 0)
  funext a; match a with | ⟨0, _⟩ => rfl | ⟨1, _⟩ => rfl

theorem first_centre' (r : Fin 50000) (c : Fin 128) :
    val_main_v59 (F := Ideal) x0 x1 x2 x3 (ix2 r c) = centred (shifted (val_main_v43 (F := Ideal) x0 x1 x2) (asRow x3)) (ix2 r c) := by
  rw [val_main_v59_apply, val_main_v58_apply]
  show val_main_v46 (F := Ideal) x0 x1 x2 x3 (ix2 r c) - val_main_v50 (F := Ideal) x0 x1 x2 x3 (idx_main_v58 (ix2 r c)) = (shifted (val_main_v43 (F := Ideal) x0 x1 x2) (asRow x3)) (ix2 r c) - rowMean (shifted (val_main_v43 (F := Ideal) x0 x1 x2) (asRow x3)) r
  rw [first_shift]
  refine congrArg (fun t => (shifted (val_main_v43 (F := Ideal) x0 x1 x2) (asRow x3)) (ix2 r c) - t) ?_
  refine (congrArg (val_main_v50 (F := Ideal) x0 x1 x2 x3) ?_).trans (first_mean x0 x1 x2 x3 r 0)
  funext a; match a with | ⟨0, _⟩ => rfl | ⟨1, _⟩ => rfl

theorem first_var (r : Fin 50000) (u : Fin 1) :
    val_main_v57 (F := Ideal) x0 x1 x2 x3 (ix2 r u) = rowMean (fun i => (centred (shifted (val_main_v43 (F := Ideal) x0 x1 x2) (asRow x3))) i * (centred (shifted (val_main_v43 (F := Ideal) x0 x1 x2) (asRow x3))) i) r := by
  rw [val_main_v57_apply, val_main_v55_apply, val_main_v54_apply, val_main_v56_apply, val_main_cst_12_apply, val_main_cst_11_apply]
  show Ideal.div (Ideal.ofBits .f32 0x00000000#32 + ∑ k : Fin 128, val_main_v53 (F := Ideal) x0 x1 x2 x3 (idx_main_v54 (idx_main_v55 (ix2 r u)) k))
      (Ideal.ofBits .f32 0x43000000#32) = Ideal.div (∑ k : Fin 128, (centred (shifted (val_main_v43 (F := Ideal) x0 x1 x2) (asRow x3))) (ix2 r k) * (centred (shifted (val_main_v43 (F := Ideal) x0 x1 x2) (asRow x3))) (ix2 r k)) width
  rw [Ideal.ofBits_zero_f32, zero_add]
  refine congrArg (fun s => Ideal.div s width) (Finset.sum_congr rfl fun k _ => ?_)
  have e : idx_main_v54 (idx_main_v55 (ix2 r u)) k = ix2 r k := by
    funext a; match a with | ⟨0, _⟩ => rfl | ⟨1, _⟩ => rfl
  rw [e, val_main_v53_apply]
  show val_main_v52 (F := Ideal) x0 x1 x2 x3 (ix2 r k) * val_main_v52 (F := Ideal) x0 x1 x2 x3 (ix2 r k) = _
  rw [first_centre]

theorem first_inv (r : Fin 50000) (u : Fin 1) :
    val_main_v62 (F := Ideal) x0 x1 x2 x3 (ix2 r u) = Ideal.rsqrt (rowMean (fun i => (centred (shifted (val_main_v43 (F := Ideal) x0 x1 x2) (asRow x3))) i * (centred (shifted (val_main_v43 (F := Ideal) x0 x1 x2) (asRow x3))) i) r + eps) := by
  rw [val_main_v62_apply, val_main_v61_apply, val_main_v60_apply, val_main_cst_13_apply]
  show Ideal.rsqrt (val_main_v57 (F := Ideal) x0 x1 x2 x3 (ix2 r u) + Ideal.ofBits .f32 0x3727C5AC#32) = _
  rw [first_var]
  rfl

/-- The first chain of host operations — bias, row mean, centring, row variance, reciprocal square root, scale,
    shift, clip — is the specification's map of the array it starts from. -/
theorem first_norm :
    val_main_v71 (F := Ideal) x0 x1 x2 x3 x4 x5 = normRelu (val_main_v43 (F := Ideal) x0 x1 x2) (asRow x3) (asRow x4) (asRow x5) := funext fun i => by
  obtain ⟨r, c, rfl⟩ : ∃ (r : Fin 50000) (c : Fin 128), i = ix2 r c := ⟨i 0, i 1, eq_ix2 i⟩
  rw [val_main_v71_apply, val_main_call1_v0_apply, val_main_call1_cst_apply, val_main_v70_apply, val_main_v69_apply, val_main_v68_apply,
    val_main_v67_apply, val_main_v66_apply, val_main_v65_apply, val_main_v64_apply, val_main_v63_apply]
  show max (val_main_v59 (F := Ideal) x0 x1 x2 x3 (ix2 r c) * val_main_v62 (F := Ideal) x0 x1 x2 x3 (idx_main_v63 (ix2 r c))
        * x4 (idx_main_v65 (idx_main_v66 (ix2 r c))) + x5 (idx_main_v68 (idx_main_v69 (ix2 r c)))) (Ideal.ofBits .f32 0x00000000#32)
    = max ((centred (shifted (val_main_v43 (F := Ideal) x0 x1 x2) (asRow x3))) (ix2 r c) * Ideal.rsqrt (rowMean (fun i => (centred (shifted (val_main_v43 (F := Ideal) x0 x1 x2) (asRow x3))) i * (centred (shifted (val_main_v43 (F := Ideal) x0 x1 x2) (asRow x3))) i) r + eps) * x4 (ix1 c) + x5 (ix1 c))
        (Ideal.ofBits .f32 0x00000000#32)
  have e63 : idx_main_v63 (ix2 r c) = ix2 r (0 : Fin 1) := by
    funext a; match a with | ⟨0, _⟩ => rfl | ⟨1, _⟩ => rfl
  have e66 : idx_main_v65 (idx_main_v66 (ix2 r c)) = ix1 c := by
    funext a; match a with | ⟨0, _⟩ => rfl
  have e69 : idx_main_v68 (idx_main_v69 (ix2 r c)) = ix1 c := by
    funext a; match a with | ⟨0, _⟩ => rfl
  rw [e63, e66, e69, first_centre', first_inv]

end first

/-! ## The second normalisation chain -/

section second

variable (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal))

theorem second_shift (r : Fin 50000) (c : Fin 128) :
    val_main_v88 (F := Ideal) x0 x1 x2 x3 x4 x5 x6 x7 (ix2 r c) = shifted (val_main_v85 (F := Ideal) x0 x1 x2 x3 x4 x5 x6) (asRow x7) (ix2 r c) := by
  rw [val_main_v88_apply, val_main_v87_apply, val_main_v86_apply]
  show (val_main_v85 (F := Ideal) x0 x1 x2 x3 x4 x5 x6) (ix2 r c) + x7 (idx_main_v86 (idx_main_v87 (ix2 r c))) = (val_main_v85 (F := Ideal) x0 x1 x2 x3 x4 x5 x6) (ix2 r c) + x7 (ix1 c)
  refine congrArg (fun t => (val_main_v85 (F := Ideal) x0 x1 x2 x3 x4 x5 x6) (ix2 r c) + x7 t) ?_
  funext a; match a with | ⟨0, _⟩ => rfl

theorem second_mean (r : Fin 50000) (u : Fin 1) :
    val_main_v92 (F := Ideal) x0 x1 x2 x3 x4 x5 x6 x7 (ix2 r u) = rowMean (shifted (val_main_v85 (F := Ideal) x0 x1 x2 x3 x4 x5 x6) (asRow x7)) r := by
  rw [val_main_v92_apply, val_main_v90_apply, val_main_v89_apply, val_main_v91_apply, val_main_cst_18_apply, val_main_cst_17_apply]
  show Ideal.div (Ideal.ofBits .f32 0x00000000#32 + ∑ k : Fin 128, val_main_v88 (F := Ideal) x0 x1 x2 x3 x4 x5 x6 x7 (idx_main_v89 (idx_main_v90 (ix2 r u)) k))
      (Ideal.ofBits .f32 0x43000000#32) = Ideal.div (∑ k : Fin 128, (shifted (val_main_v85 (F := Ideal) x0 x1 x2 x3 x4 x5 x6) (asRow x7)) (ix2 r k)) width
  rw [Ideal.ofBits_zero_f32, zero_add]
  refine congrArg (fun s => Ideal.div s width) (Finset.sum_congr rfl fun k _ => ?_)
  refine (congrArg (val_main_v88 (F := Ideal) x0 x1 x2 x3 x4 x5 x6 x7) ?_).trans (second_shift x0 x1 x2 x3 x4 x5 x6 x7 r k)
  funext a; match a with | ⟨0, _⟩ => rfl | ⟨1, _⟩ => rfl

theorem second_centre (r : Fin 50000) (c : Fin 128) :
    val_main_v94 (F := Ideal) x0 x1 x2 x3 x4 x5 x6 x7 (ix2 r c) = centred (shifted (val_main_v85 (F := Ideal) x0 x1 x2 x3 x4 x5 x6) (asRow x7)) (ix2 r c) := by
  rw [val_main_v94_apply, val_main_v93_apply]
  show val_main_v88 (F := Ideal) x0 x1 x2 x3 x4 x5 x6 x7 (ix2 r c) - val_main_v92 (F := Ideal) x0 x1 x2 x3 x4 x5 x6 x7 (idx_main_v93 (ix2 r c)) = (shifted (val_main_v85 (F := Ideal) x0 x1 x2 x3 x4 x5 x6) (asRow x7)) (ix2 r c) - rowMean (shifted (val_main_v85 (F := Ideal) x0 x1 x2 x3 x4 x5 x6) (asRow x7)) r
  rw [second_shift]
  refine congrArg (fun t => (shifted (val_main_v85 (F := Ideal) x0 x1 x2 x3 x4 x5 x6) (asRow x7)) (ix2 r c) - t) ?_
  refine (congrArg (val_main_v92 (F := Ideal) x0 x1 x2 x3 x4 x5 x6 x7) ?_).trans (second_mean x0 x1 x2 x3 x4 x5 x6 x7 r 0)
  funext a; match a with | ⟨0, _⟩ => rfl | ⟨1, _⟩ => rfl

theorem second_centre' (r : Fin 50000) (c : Fin 128) :
    val_main_v101 (F := Ideal) x0 x1 x2 x3 x4 x5 x6 x7 (ix2 r c) = centred (shifted (val_main_v85 (F := Ideal) x0 x1 x2 x3 x4 x5 x6) (asRow x7)) (ix2 r c) := by
  rw [val_main_v101_apply, val_main_v100_apply]
  show val_main_v88 (F := Ideal) x0 x1 x2 x3 x4 x5 x6 x7 (ix2 r c) - val_main_v92 (F := Ideal) x0 x1 x2 x3 x4 x5 x6 x7 (idx_main_v100 (ix2 r c)) = (shifted (val_main_v85 (F := Ideal) x0 x1 x2 x3 x4 x5 x6) (asRow x7)) (ix2 r c) - rowMean (shifted (val_main_v85 (F := Ideal) x0 x1 x2 x3 x4 x5 x6) (asRow x7)) r
  rw [second_shift]
  refine congrArg (fun t => (shifted (val_main_v85 (F := Ideal) x0 x1 x2 x3 x4 x5 x6) (asRow x7)) (ix2 r c) - t) ?_
  refine (congrArg (val_main_v92 (F := Ideal) x0 x1 x2 x3 x4 x5 x6 x7) ?_).trans (second_mean x0 x1 x2 x3 x4 x5 x6 x7 r 0)
  funext a; match a with | ⟨0, _⟩ => rfl | ⟨1, _⟩ => rfl

theorem second_var (r : Fin 50000) (u : Fin 1) :
    val_main_v99 (F := Ideal) x0 x1 x2 x3 x4 x5 x6 x7 (ix2 r u) = rowMean (fun i => (centred (shifted (val_main_v85 (F := Ideal) x0 x1 x2 x3 x4 x5 x6) (asRow x7))) i * (centred (shifted (val_main_v85 (F := Ideal) x0 x1 x2 x3 x4 x5 x6) (asRow x7))) i) r := by
  rw [val_main_v99_apply, val_main_v97_apply, val_main_v96_apply, val_main_v98_apply, val_main_cst_20_apply, val_main_cst_19_apply]
  show Ideal.div (Ideal.ofBits .f32 0x00000000#32 + ∑ k : Fin 128, val_main_v95 (F := Ideal) x0 x1 x2 x3 x4 x5 x6 x7 (idx_main_v96 (idx_main_v97 (ix2 r u)) k))
      (Ideal.ofBits .f32 0x43000000#32) = Ideal.div (∑ k : Fin 128, (centred (shifted (val_main_v85 (F := Ideal) x0 x1 x2 x3 x4 x5 x6) (asRow x7))) (ix2 r k) * (centred (shifted (val_main_v85 (F := Ideal) x0 x1 x2 x3 x4 x5 x6) (asRow x7))) (ix2 r k)) width
  rw [Ideal.ofBits_zero_f32, zero_add]
  refine congrArg (fun s => Ideal.div s width) (Finset.sum_congr rfl fun k _ => ?_)
  have e : idx_main_v96 (idx_main_v97 (ix2 r u)) k = ix2 r k := by
    funext a; match a with | ⟨0, _⟩ => rfl | ⟨1, _⟩ => rfl
  rw [e, val_main_v95_apply]
  show val_main_v94 (F := Ideal) x0 x1 x2 x3 x4 x5 x6 x7 (ix2 r k) * val_main_v94 (F := Ideal) x0 x1 x2 x3 x4 x5 x6 x7 (ix2 r k) = _
  rw [second_centre]

theorem second_inv (r : Fin 50000) (u : Fin 1) :
    val_main_v104 (F := Ideal) x0 x1 x2 x3 x4 x5 x6 x7 (ix2 r u) = Ideal.rsqrt (rowMean (fun i => (centred (shifted (val_main_v85 (F := Ideal) x0 x1 x2 x3 x4 x5 x6) (asRow x7))) i * (centred (shifted (val_main_v85 (F := Ideal) x0 x1 x2 x3 x4 x5 x6) (asRow x7))) i) r + eps) := by
  rw [val_main_v104_apply, val_main_v103_apply, val_main_v102_apply, val_main_cst_21_apply]
  show Ideal.rsqrt (val_main_v99 (F := Ideal) x0 x1 x2 x3 x4 x5 x6 x7 (ix2 r u) + Ideal.ofBits .f32 0x3727C5AC#32) = _
  rw [second_var]
  rfl

/-- The second chain of host operations — bias, row mean, centring, row variance, reciprocal square root, scale,
    shift, clip — is the specification's map of the array it starts from. -/
theorem second_norm :
    val_main_v113 (F := Ideal) x0 x1 x2 x3 x4 x5 x6 x7 x8 x9 = normRelu (val_main_v85 (F := Ideal) x0 x1 x2 x3 x4 x5 x6) (asRow x7) (asRow x8) (asRow x9) := funext fun i => by
  obtain ⟨r, c, rfl⟩ : ∃ (r : Fin 50000) (c : Fin 128), i = ix2 r c := ⟨i 0, i 1, eq_ix2 i⟩
  rw [val_main_v113_apply, val_main_call2_v0_apply, val_main_call2_cst_apply, val_main_v112_apply, val_main_v111_apply, val_main_v110_apply,
    val_main_v109_apply, val_main_v108_apply, val_main_v107_apply, val_main_v106_apply, val_main_v105_apply]
  show max (val_main_v101 (F := Ideal) x0 x1 x2 x3 x4 x5 x6 x7 (ix2 r c) * val_main_v104 (F := Ideal) x0 x1 x2 x3 x4 x5 x6 x7 (idx_main_v105 (ix2 r c))
        * x8 (idx_main_v107 (idx_main_v108 (ix2 r c))) + x9 (idx_main_v110 (idx_main_v111 (ix2 r c)))) (Ideal.ofBits .f32 0x00000000#32)
    = max ((centred (shifted (val_main_v85 (F := Ideal) x0 x1 x2 x3 x4 x5 x6) (asRow x7))) (ix2 r c) * Ideal.rsqrt (rowMean (fun i => (centred (shifted (val_main_v85 (F := Ideal) x0 x1 x2 x3 x4 x5 x6) (asRow x7))) i * (centred (shifted (val_main_v85 (F := Ideal) x0 x1 x2 x3 x4 x5 x6) (asRow x7))) i) r + eps) * x8 (ix1 c) + x9 (ix1 c))
        (Ideal.ofBits .f32 0x00000000#32)
  have e63 : idx_main_v105 (ix2 r c) = ix2 r (0 : Fin 1) := by
    funext a; match a with | ⟨0, _⟩ => rfl | ⟨1, _⟩ => rfl
  have e66 : idx_main_v107 (idx_main_v108 (ix2 r c)) = ix1 c := by
    funext a; match a with | ⟨0, _⟩ => rfl
  have e69 : idx_main_v110 (idx_main_v111 (ix2 r c)) = ix1 c := by
    funext a; match a with | ⟨0, _⟩ => rfl
  rw [e63, e66, e69, second_centre', second_inv]

end second

end Cert.ReferenceIdeal.Layers

end
-- ==== Proof.RefNetwork.lean ====
/-
  The neighbourhood sum, carried as one function, and the reference program's result through it.

  Both programs gather each edge's source row of the features, scale it by the edge's weight, and add it into the
  edge's target row, with the same operations on the same edge arrays.  That step is named here as one function of
  the feature array (and of the edge list the edge arrays come from) and is never opened: the two programs are
  compared by the arrays that go into it.  The reference's result is then: three times, a dense layer followed by
  the neighbourhood sum; between them, twice, the row normalisation; and the last bias at the end.
-/
import proofs.«154800_j69226282877028_1_alg».proof.Proof.RefLayers

noncomputable section

namespace Cert.ReferenceIdeal.Layers

open Cert.ReferenceIdeal Cert.ReferenceIdeal.Gen Cert.ReferenceIdeal.ReadP Idealize.ShloMosaic Idealize.ShloMosaic.ValueIdx
open Cert.GcnSpec

/-- The neighbourhood sum of a 128-wide feature array: gather the source rows, scale by the edge weights, add into
    the target rows of a zero array. -/
def gatherSum128 (x1 : (⟨S2x600000, .i32⟩ : BufTy).Contents (Elt Ideal)) (h : (⟨S50000x128, .f32⟩ : BufTy).Contents (Elt Ideal)) :
    (⟨S50000x128, .f32⟩ : BufTy).Contents (Elt Ideal) :=
  Host.scatterAdd (F := Ideal) (φ := .f32) scatter_S50000x128_S650000x1_S650000x128_1_0_0_1 (val_main_v41 (F := Ideal)) (val_main_v42 (F := Ideal) x1)
    (mulf (F := Ideal) (φ := .f32) (Host.gather gather_S50000x128_S650000x1_S650000x128_1_0_n_n_0_1_1128 h (val_main_v36 (F := Ideal) x1)) (val_main_v39 (F := Ideal) x1))

/-- The neighbourhood sum of a 64-wide feature array, followed by the last bias. -/
def gatherSum64Bias (x1 : (⟨S2x600000, .i32⟩ : BufTy).Contents (Elt Ideal)) (x11 : (⟨S64, .f32⟩ : BufTy).Contents (Elt Ideal))
    (h : (⟨S50000x64, .f32⟩ : BufTy).Contents (Elt Ideal)) : (⟨S50000x64, .f32⟩ : BufTy).Contents (Elt Ideal) :=
  addf (F := Ideal) (φ := .f32) (Host.scatterAdd (F := Ideal) (φ := .f32) scatter_S50000x64_S650000x1_S650000x64_1_0_0_1 (val_main_v125 (F := Ideal)) (val_main_v126 (F := Ideal) x1)
    (mulf (F := Ideal) (φ := .f32) (Host.gather gather_S50000x64_S650000x1_S650000x64_1_0_n_n_0_1_164 h (val_main_v120 (F := Ideal) x1)) (val_main_v123 (F := Ideal) x1)))
    (val_main_v129 (F := Ideal) x11)

variable (x0 : (⟨S50000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (x4 : (⟨S128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal))

theorem v43_eq : val_main_v43 (F := Ideal) x0 x1 x2 = gatherSum128 x1 (dense x0 x2) := by
  rw [← dot128]; rfl

theorem v85_eq : val_main_v85 (F := Ideal) x0 x1 x2 x3 x4 x5 x6
    = gatherSum128 x1 (dense (val_main_v71 (F := Ideal) x0 x1 x2 x3 x4 x5) x6) := by
  rw [← dot128]; rfl

theorem v130_eq : val_main_v130 (F := Ideal) x0 x1 x2 x3 x4 x5 x6 x7 x8 x9 x10 x11
    = gatherSum64Bias x1 x11 (dense (val_main_v113 (F := Ideal) x0 x1 x2 x3 x4 x5 x6 x7 x8 x9) x10) := by
  rw [← dot64]; rfl

/-- The whole network as the specification's maps around the neighbourhood sum. -/
def network : (⟨S50000x64, .f32⟩ : BufTy).Contents (Elt Ideal) :=
  gatherSum64Bias x1 x11 (dense (normRelu (gatherSum128 x1 (dense (normRelu (gatherSum128 x1 (dense x0 x2))
    (asRow x3) (asRow x4) (asRow x5)) x6)) (asRow x7) (asRow x8) (asRow x9)) x10)

/-- The reference program's result is the network. -/
theorem result_eq : val_main_v130 (F := Ideal) x0 x1 x2 x3 x4 x5 x6 x7 x8 x9 x10 x11
    = network x0 x1 x2 x3 x4 x5 x6 x7 x8 x9 x10 x11 := by
  rw [v130_eq, second_norm, v85_eq, first_norm, v43_eq]
  rfl

end Cert.ReferenceIdeal.Layers

end
-- ==== Proof.KNetwork.lean ====
/-
  The kernel program's result, boundary by boundary.

  The run's boundaries give the result array as a fold through eleven segments.  Read backwards: the last stretch of
  host operations is the neighbourhood sum (and last bias) of the third product; each product region leaves the dense
  layer of what it read; each normalisation region leaves the row normalisation of what it read, with the three
  parameter vectors laid as rows by the stretch before it; each stretch between regions is the neighbourhood sum of the
  product before it.  The edge arrays every neighbourhood sum uses are computed once, before the first region, from
  the edge list, and no later segment writes them.  Unfolded all the way, the result is the network of the
  specification's maps around the neighbourhood sum, of the arguments at launch.
-/
import proofs.«154800_j69226282877028_1_alg».proof.Proof.Carry
import proofs.«154800_j69226282877028_1_alg».proof.Proof.Region0
import proofs.«154800_j69226282877028_1_alg».proof.Proof.Region1
import proofs.«154800_j69226282877028_1_alg».proof.Proof.Region2
import proofs.«154800_j69226282877028_1_alg».proof.Proof.Region3
import proofs.«154800_j69226282877028_1_alg».proof.Proof.Region4
import proofs.«154800_j69226282877028_1_alg».proof.Proof.RefNetwork
import Idealize.ShloMosaic.Lib.StableHlo.Run
import Idealize.ShloMosaic.Lib.ValueLayout

set_option maxRecDepth 16384

noncomputable section

namespace Cert.KernelIdeal.Network

open Cert.KernelIdeal Cert.KernelIdeal.Gen Idealize.ShloMosaic Idealize.ShloMosaic.TcCoe Idealize.ShloMosaic.ValueIdx
open Idealize.SL.Sem Idealize.ShloMosaic.StableHlo Cert.GcnSpec
open Cert.ReferenceIdeal.Layers (gatherSum128 gatherSum64Bias network)

variable (m : (ℓ : Loc nD τ sig) → Buf (Elt Ideal) ℓ) (ρ : Dev nD → PrngReg)

/-! ## The edge arrays, computed before the first region from the edge list -/

theorem edge_v3 (c : Dev nD) : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

theorem edge_v6 (c : Dev nD) : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 2000000 in
theorem edge_v29 (c : Dev nD) : W3 m ρ c (Proc.devRef .tc main_v29) = Cert.ReferenceIdeal.ReadP.val_main_v29 (F := Ideal) (m ((c : Thread nD τ).loc main_arg1)) := by
  show StableHlo.after hostOps0_2 (StableHlo.after hostOps0_1 (StableHlo.after hostOps0 (W0 m ρ c))) (Proc.devRef .tc main_v29) = _
  after_results_simp
  simp only [TRef.toBuf, TRef.ofBuf, cast_eq]
  rfl

/-! ## The first layer -/

theorem stage_main_v30 (c : Dev nD) :
    W4 m ρ c (Proc.devRef .tc main_v30) = dense ((m ((c : Thread nD τ).loc main_arg0)) : S50000x128.Idx → EReal) ((m ((c : Thread nD τ).loc main_arg2)) : S128x128.Idx → EReal) :=
  (W4_arr m ρ c 2).trans ((Cert.KernelIdeal.Region0.final (V3 m ρ) c).trans (by
    show dense (W3 m ρ c (Proc.devRef .tc main_arg0) : S50000x128.Idx → EReal) (W3 m ρ c (Proc.devRef .tc main_arg2) : S128x128.Idx → EReal) = _
    rw [Cert.KernelIdeal.Carry.main_arg0_W3, Cert.KernelIdeal.Carry.main_arg2_W3]))

theorem stage_main_v43 (c : Dev nD) :
    W5 m ρ c (Proc.devRef .tc main_v43) = gatherSum128 (m ((c : Thread nD τ).loc main_arg1)) (W4 m ρ c (Proc.devRef .tc main_v30)) := by
  show StableHlo.after hostOps1 (W4 m ρ c) (Proc.devRef .tc main_v43) = _
  after_results_simp
  rw [Cert.KernelIdeal.Carry.main_v3_W4, Cert.KernelIdeal.Carry.main_v6_W4, Cert.KernelIdeal.Carry.main_v29_W4,
    edge_v3, edge_v6, edge_v29]
  rfl

theorem stage_main_v44 (c : Dev nD) : W5 m ρ c (Proc.devRef .tc main_v44) = asRow (m ((c : Thread nD τ).loc main_arg3)) := by
  show StableHlo.after hostOps1 (W4 m ρ c) (Proc.devRef .tc main_v44) = _
  after_results
  rw [Cert.KernelIdeal.Carry.main_arg3_W4]
  funext q
  obtain ⟨u, k, rfl⟩ : ∃ (u : Fin 1) (k : Fin 128), q = ix2 u k := ⟨q 0, q 1, eq_ix2 q⟩
  exact shapeCast_a_1a_apply (m ((c : Thread nD τ).loc main_arg3)) shapeCasts_S128_S1x128 u k

theorem stage_main_v45 (c : Dev nD) : W5 m ρ c (Proc.devRef .tc main_v45) = asRow (m ((c : Thread nD τ).loc main_arg4)) := by
  show StableHlo.after hostOps1 (W4 m ρ c) (Proc.devRef .tc main_v45) = _
  after_results
  rw [Cert.KernelIdeal.Carry.main_arg4_W4]
  funext q
  obtain ⟨u, k, rfl⟩ : ∃ (u : Fin 1) (k : Fin 128), q = ix2 u k := ⟨q 0, q 1, eq_ix2 q⟩
  exact shapeCast_a_1a_apply (m ((c : Thread nD τ).loc main_arg4)) shapeCasts_S128_S1x128 u k

theorem stage_main_v46 (c : Dev nD) : W5 m ρ c (Proc.devRef .tc main_v46) = asRow (m ((c : Thread nD τ).loc main_arg5)) := by
  show StableHlo.after hostOps1 (W4 m ρ c) (Proc.devRef .tc main_v46) = _
  after_results
  rw [Cert.KernelIdeal.Carry.main_arg5_W4]
  funext q
  obtain ⟨u, k, rfl⟩ : ∃ (u : Fin 1) (k : Fin 128), q = ix2 u k := ⟨q 0, q 1, eq_ix2 q⟩
  exact shapeCast_a_1a_apply (m ((c : Thread nD τ).loc main_arg5)) shapeCasts_S128_S1x128 u k

theorem stage_main_v47 (c : Dev nD) :
    W6 m ρ c (Proc.devRef .tc main_v47) = normRelu (W5 m ρ c (Proc.devRef .tc main_v43) : S50000x128.Idx → EReal) (W5 m ρ c (Proc.devRef .tc main_v44) : S1x128.Idx → EReal)
      (W5 m ρ c (Proc.devRef .tc main_v45) : S1x128.Idx → EReal) (W5 m ρ c (Proc.devRef .tc main_v46) : S1x128.Idx → EReal) :=
  (W6_arr m ρ c 4).trans (Cert.KernelIdeal.Region1.final (V5 m ρ) c)

/-! ## The second layer -/

theorem stage_main_v48 (c : Dev nD) :
    W7 m ρ c (Proc.devRef .tc main_v48) = dense (W6 m ρ c (Proc.devRef .tc main_v47) : S50000x128.Idx → EReal) ((m ((c : Thread nD τ).loc main_arg6)) : S128x128.Idx → EReal) :=
  (W7_arr m ρ c 2).trans ((Cert.KernelIdeal.Region2.final (V6 m ρ) c).trans (by
    show dense (W6 m ρ c (Proc.devRef .tc main_v47) : S50000x128.Idx → EReal) (W6 m ρ c (Proc.devRef .tc main_arg6) : S128x128.Idx → EReal) = _
    rw [Cert.KernelIdeal.Carry.main_arg6_W6]))

theorem stage_main_v61 (c : Dev nD) :
    W8 m ρ c (Proc.devRef .tc main_v61) = gatherSum128 (m ((c : Thread nD τ).loc main_arg1)) (W7 m ρ c (Proc.devRef .tc main_v48)) := by
  show StableHlo.after hostOps3 (W7 m ρ c) (Proc.devRef .tc main_v61) = _
  after_results_simp
  rw [Cert.KernelIdeal.Carry.main_v3_W7, Cert.KernelIdeal.Carry.main_v6_W7, Cert.KernelIdeal.Carry.main_v29_W7,
    edge_v3, edge_v6, edge_v29]
  rfl

theorem stage_main_v62 (c : Dev nD) : W8 m ρ c (Proc.devRef .tc main_v62) = asRow (m ((c : Thread nD τ).loc main_arg7)) := by
  show StableHlo.after hostOps3 (W7 m ρ c) (Proc.devRef .tc main_v62) = _
  after_results
  rw [Cert.KernelIdeal.Carry.main_arg7_W7]
  funext q
  obtain ⟨u, k, rfl⟩ : ∃ (u : Fin 1) (k : Fin 128), q = ix2 u k := ⟨q 0, q 1, eq_ix2 q⟩
  exact shapeCast_a_1a_apply (m ((c : Thread nD τ).loc main_arg7)) shapeCasts_S128_S1x128 u k

theorem stage_main_v63 (c : Dev nD) : W8 m ρ c (Proc.devRef .tc main_v63) = asRow (m ((c : Thread nD τ).loc main_arg8)) := by
  show StableHlo.after hostOps3 (W7 m ρ c) (Proc.devRef .tc main_v63) = _
  after_results
  rw [Cert.KernelIdeal.Carry.main_arg8_W7]
  funext q
  obtain ⟨u, k, rfl⟩ : ∃ (u : Fin 1) (k : Fin 128), q = ix2 u k := ⟨q 0, q 1, eq_ix2 q⟩
  exact shapeCast_a_1a_apply (m ((c : Thread nD τ).loc main_arg8)) shapeCasts_S128_S1x128 u k

theorem stage_main_v64 (c : Dev nD) : W8 m ρ c (Proc.devRef .tc main_v64) = asRow (m ((c : Thread nD τ).loc main_arg9)) := by
  show StableHlo.after hostOps3 (W7 m ρ c) (Proc.devRef .tc main_v64) = _
  after_results
  rw [Cert.KernelIdeal.Carry.main_arg9_W7]
  funext q
  obtain ⟨u, k, rfl⟩ : ∃ (u : Fin 1) (k : Fin 128), q = ix2 u k := ⟨q 0, q 1, eq_ix2 q⟩
  exact shapeCast_a_1a_apply (m ((c : Thread nD τ).loc main_arg9)) shapeCasts_S128_S1x128 u k

theorem stage_main_v65 (c : Dev nD) :
    W9 m ρ c (Proc.devRef .tc main_v65) = normRelu (W8 m ρ c (Proc.devRef .tc main_v61) : S50000x128.Idx → EReal) (W8 m ρ c (Proc.devRef .tc main_v62) : S1x128.Idx → EReal)
      (W8 m ρ c (Proc.devRef .tc main_v63) : S1x128.Idx → EReal) (W8 m ρ c (Proc.devRef .tc main_v64) : S1x128.Idx → EReal) :=
  (W9_arr m ρ c 4).trans (Cert.KernelIdeal.Region3.final (V8 m ρ) c)

/-! ## The third layer -/

theorem stage_main_v66 (c : Dev nD) :
    W10 m ρ c (Proc.devRef .tc main_v66) = dense (W9 m ρ c (Proc.devRef .tc main_v65) : S50000x128.Idx → EReal) ((m ((c : Thread nD τ).loc main_arg10)) : S128x64.Idx → EReal) :=
  (W10_arr m ρ c 2).trans ((Cert.KernelIdeal.Region4.final (V9 m ρ) c).trans (by
    show dense (W9 m ρ c (Proc.devRef .tc main_v65) : S50000x128.Idx → EReal) (W9 m ρ c (Proc.devRef .tc main_arg10) : S128x64.Idx → EReal) = _
    rw [Cert.KernelIdeal.Carry.main_arg10_W9]))

theorem stage_main_v82 (c : Dev nD) :
    W11 m ρ c (Proc.devRef .tc main_v82) = gatherSum64Bias (m ((c : Thread nD τ).loc main_arg1)) (m ((c : Thread nD τ).loc main_arg11)) (W10 m ρ c (Proc.devRef .tc main_v66)) := by
  show StableHlo.after hostOps5 (W10 m ρ c) (Proc.devRef .tc main_v82) = _
  after_results_simp
  rw [Cert.KernelIdeal.Carry.main_v3_W10, Cert.KernelIdeal.Carry.main_v6_W10, Cert.KernelIdeal.Carry.main_v29_W10,
    Cert.KernelIdeal.Carry.main_arg11_W10, edge_v3, edge_v6, edge_v29]
  rfl

/-! ## The whole -/

/-- The kernel program's result array is the network of the arguments at launch. -/
theorem result_eq (c : Dev nD) :
    W11 m ρ c (Proc.devRef .tc main_v82) = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [stage_main_v82, stage_main_v66, stage_main_v65, stage_main_v61, stage_main_v62, stage_main_v63, stage_main_v64, stage_main_v48,
    stage_main_v47, stage_main_v43, stage_main_v44, stage_main_v45, stage_main_v46, stage_main_v30]
  rfl

end Cert.KernelIdeal.Network

end
-- ==== Proof.lean ====
/-
  A three-layer graph convolution network on 50000 nodes and 650000 edges (600000 given, one self loop per node):
  the kernel program against its reference, at the extended reals.

  Both programs compute, from the edge list, each edge's source, target and weight (the product of the reciprocal
  square roots of the two end nodes' degrees) with the same host operations, and both pass features along edges with
  the same gather, scale and scatter-add.  They differ in how the dense steps are run.  The reference multiplies by
  each weight matrix with one contraction; the kernel multiplies ten blocks of 5000 rows one after the other.  The
  reference adds the bias, normalises each row, scales, shifts and clips with a chain of whole-array host
  operations; the kernel does the same arithmetic, in the same order, on ten blocks of 5000 rows.  A row of a
  product, and a row of the normalised array, depends only on the same row of the operand, so the ten blocks are the
  blocks of the whole-array result; at the extended reals a sum over the 128 features is the same sum in any order,
  and a change of float format is the identity.  So both results are ONE function of the arguments — three dense
  layers, each followed by the neighbourhood sum, with the row normalisation between them and the last bias at the
  end — and no property of the inputs is used: the precondition is never opened.

  The kernel program's and its idealization's frames are the generated ones; the reference's is its run with the
  result forgotten; the idealization rewrote no operation, so nothing is owed for it.
-/
import proofs.«154800_j69226282877028_1_alg».proof.Defs
import proofs.«154800_j69226282877028_1_alg».proof.Proof.Gen.Kernel
import proofs.«154800_j69226282877028_1_alg».proof.Proof.Gen.Kernel.Skeleton
import proofs.«154800_j69226282877028_1_alg».proof.Proof.Gen.Kernel.Launch
import proofs.«154800_j69226282877028_1_alg».proof.Proof.Gen.Kernel.Points
import proofs.«154800_j69226282877028_1_alg».proof.Proof.Gen.Kernel.Frame
import proofs.«154800_j69226282877028_1_alg».proof.Proof.Gen.KernelIdeal
import proofs.«154800_j69226282877028_1_alg».proof.Proof.Gen.KernelIdeal.Skeleton
import proofs.«154800_j69226282877028_1_alg».proof.Proof.Gen.KernelIdeal.Launch
import proofs.«154800_j69226282877028_1_alg».proof.Proof.Gen.KernelIdeal.Points
import proofs.«154800_j69226282877028_1_alg».proof.Proof.Gen.KernelIdeal.Frame
import proofs.«154800_j69226282877028_1_alg».proof.Proof.Gen.ReferenceIdeal
import proofs.«154800_j69226282877028_1_alg».proof.Proof.Gen.Pre_finite_inputs
import proofs.«154800_j69226282877028_1_alg».proof.Proof.KRun
import proofs.«154800_j69226282877028_1_alg».proof.Proof.KNetwork
import proofs.«154800_j69226282877028_1_alg».proof.Proof.RefNetwork
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference terminates, nothing faulting, with its arguments unchanged: its run, the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the network of those arguments in their result
    arrays: the kernel's run read boundary by boundary, the reference's read operation by operation. -/
theorem algebraic : Cert.algebraic_KernelIdeal_ReferenceIdeal := by
  intro m ρ m' ρ' _ hagree
  refine ⟨fun c => Cert.ReferenceIdeal.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Network.result_eq m ρ c), (h c).2⟩)
      (Cert.KernelIdeal.RunV.run_result (F := Ideal) m ρ)
  · refine (θ_run Cert.ReferenceIdeal.defs _ _).mono (fun r h c => ⟨?_, (h c).2⟩)
      (Cert.ReferenceIdeal.ValueP.run (F := Ideal) m' ρ')
    obtain ⟨a0, a1, a2, a3, a4, a5, a6, a7, a8, a9, a10, a11⟩ := hagree c
    rw [(h c).1, Cert.ReferenceIdeal.ReadP.val_main_v130_eq, Cert.ReferenceIdeal.Layers.result_eq,
      a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
